-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x400000 : Shape := ⟨2, ![2, 400000]⟩
abbrev S100000 : Shape := ⟨1, ![100000]⟩
abbrev S11x256 : Shape := ⟨2, ![11, 256]⟩
abbrev S256 : Shape := ⟨1, ![256]⟩
abbrev S256x256 : Shape := ⟨2, ![256, 256]⟩
abbrev S4x256x256 : Shape := ⟨3, ![4, 256, 256]⟩
abbrev S4x256 : Shape := ⟨2, ![4, 256]⟩
abbrev S256x1 : Shape := ⟨2, ![256, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x256 : S_.BroadcastsInDim S11x256 (![] : Fin 0 → Fin S11x256.rank)
  reducesTo_S11x256_S_d0_1 : S11x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S256x1 .f32) (main_arg14 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg13
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S4x256x256 .f32) (main_arg10 : FVec F S4x256 .f32) (main_arg11 : FVec F S256x256 .f32) (main_arg12 : FVec F S256 .f32) (main_arg13 : FVec F S256x1 .f32) (main_arg14 : FVec F S1 .f32) (main_v33 : IVec S_ 1) : IVec S_ 1 :=
  let main_v34 : FVec F S4x256x256 .f32 := Host.absf main_arg9
  let main_cst_12 : FVec F S_ .f32 := constant S_ .f32 0x7F800000#32
  let main_v35 : FVec F S4x256x256 .f32 := broadcastInDim S4x256x256 ![] bcast_S_S4x256x256 main_cst_12
  let main_v36 : IVec S4x256x256 1 := cmpf .olt main_v34 main_v35
  let main_c_13 : IVec S_ 1 := constantI S_ 1 1#1
  let main_v37 : IVec S_ 1 := (fun x v => Host.reduce IntOp.andi x v reducesTo_S4x256x256_S_d0_1_2 h_S_) main_v36 main_c_13
  let main_v38 : IVec S_ 1 := andi main_v33 main_v37
  let main_v39 : FVec F S4x256 .f32 := Host.absf main_arg10
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S4x256x256 .f32) (main_arg8 : FVec F S4x256 .f32) (main_arg9 : FVec F S4x256x256 .f32) (main_arg10 : FVec F S4x256 .f32) (main_arg11 : FVec F S256x256 .f32) (main_arg12 : FVec F S256 .f32) (main_arg13 : FVec F S256x1 .f32) (main_arg14 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4x256x256 .f32 := Host.absf main_arg7
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x11 .f32) (main_arg1 : IVec S2x400000 32) (main_arg2 : IVec S100000 32) (main_arg3 : FVec F S11x256 .f32) (main_arg4 : FVec F S256 .f32) (main_arg5 : FVec F S256x256 .f32) (main_arg6 : FVec F S256 .f32) (main_arg7 : FVec F S4x256x256 .f32) (main_arg8 : FVec F S4x256 .f32) (main_arg9 : FVec F S4x256x256 .f32) (main_arg10 : FVec F S4x256 .f32) (main_arg11 : FVec F S256x256 .f32) (main_arg12 : FVec F S256 .f32) (main_arg13 : FVec F S256x1 .f32) (main_arg14 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x256 .f32 := Host.absf main_arg3
  let main_cst_0 : FVec F S_ .f32 := constant S_ .f32 0x7F800000#32
  let main_v5 : FVec F S11x256 .f32 := broadcastInDim S11x256 ![] bcast_S_S11x256 main_cst_0
  let main_v6 : IVec S11x256 1 := cmpf .olt main_v4 main_v5
  let main_c_1 : IVec S_ 1 := constantI S_ 1 1#1
  let main_v7 : IVec S_ 1 := (fun x v => Host.reduce IntOp.andi x v reducesTo_S11x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S100000x11 : Shape := ⟨2, ![100000, 11]⟩
abbrev S2x400000 : Shape := ⟨2, ![2, 400000]⟩
abbrev S100000 : Shape := ⟨1, ![100000]⟩
abbrev S11x256 : Shape := ⟨2, ![11, 256]⟩
abbrev S256 : Shape := ⟨1, ![256]⟩
abbrev S256x256 : Shape := ⟨2, ![256, 256]⟩
abbrev S4x256x256 : Shape := ⟨3, ![4, 256, 256]⟩
abbrev S4x256 : Shape := ⟨2, ![4, 256]⟩
abbrev S256x1 : Shape := ⟨2, ![256, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x11 : Shape := ⟨2, ![400000, 11]⟩
abbrev S1x256 : Shape := ⟨2, ![1, 256]⟩
abbrev S100000x256 : Shape := ⟨2, ![100000, 256]⟩
abbrev S5000x11 : Shape := ⟨2, ![5000, 11]⟩
abbrev S5000x256 : Shape := ⟨2, ![5000, 256]⟩
abbrev S1x256x256 : Shape := ⟨3, ![1, 256, 256]⟩
abbrev S400000x256 : Shape := ⟨2, ![400000, 256]⟩
abbrev S100000x1 : Shape := ⟨2, ![100000, 1]⟩
abbrev S5000 : Shape := ⟨1, ![5000]⟩
abbrev S5000x1 : Shape := ⟨2, ![5000, 1]⟩
abbrev S1x1 : Shape := ⟨2, ![1, 1]⟩

abbrev nBuf : Space → Nat
  | .hbm => 150
  | .vmem => 56
  | .smem => 0
  | _ => 0

abbrev hbmTy0_0 (i : Nat) : BufTy := match i % 128 with
  | 0 => ⟨S100000x11, .f32⟩
  | 1 => ⟨S2x400000, .i32⟩
  | 2 => ⟨S100000, .i32⟩
  | 3 => ⟨S11x256, .f32⟩
  | 4 => ⟨S256, .f32⟩
  | 5 => ⟨S256x256, .f32⟩
  | 6 => ⟨S256, .f32⟩
  | 7 => ⟨S4x256x256, .f32⟩
  | 8 => ⟨S4x256, .f32⟩
  | 9 => ⟨S4x256x256, .f32⟩
  | 10 => ⟨S4x256, .f32⟩
  | 11 => ⟨S256x256, .f32⟩
  | 12 => ⟨S256, .f32⟩
  | 13 => ⟨S256x1, .f32⟩
  | 14 => ⟨S1, .f32⟩
  | 15 => ⟨S1x400000, .i32⟩
  | 16 => ⟨S400000, .i32⟩
  | 17 => ⟨S1x400000, .i32⟩
  | 18 => ⟨S400000, .i32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x11, .f32⟩
  | 28 => ⟨S_, .f32⟩
  | 29 => ⟨S100000x11, .f32⟩
  | 30 => ⟨S400000x1, .i32⟩
  | 31 => ⟨S100000x11, .f32⟩
  | 32 => ⟨S1x256, .f32⟩
  | 33 => ⟨S1x256, .f32⟩
  | 34 => ⟨S100000x256, .f32⟩
  | 35 => ⟨S1x256x256, .f32⟩
  | 36 => ⟨S256x256, .f32⟩
  | 37 => ⟨S1x256, .f32⟩
  | 38 => ⟨S256, .f32⟩
  | 39 => ⟨S1x256x256, .f32⟩
  | 40 => ⟨S256x256, .f32⟩
  | 41 => ⟨S1x256, .f32⟩
  | 42 => ⟨S256, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x256, .f32⟩
  | 52 => ⟨S_, .f32⟩
  | 53 => ⟨S100000x256, .f32⟩
  | 54 => ⟨S400000x1, .i32⟩
  | 55 => ⟨S100000x256, .f32⟩
  | 56 => ⟨S1x256, .f32⟩
  | 57 => ⟨S1x256, .f32⟩
  | 58 => ⟨S100000x256, .f32⟩
  | 59 => ⟨S1x256x256, .f32⟩
  | 60 => ⟨S256x256, .f32⟩
  | 61 => ⟨S1x256, .f32⟩
  | 62 => ⟨S256, .f32⟩
  | 63 => ⟨S1x256x256, .f32⟩
  | 64 => ⟨S256x256, .f32⟩
  | 65 => ⟨S1x256, .f32⟩
  | 66 => ⟨S256, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x256, .f32⟩
  | 76 => ⟨S_, .f32⟩
  | 77 => ⟨S100000x256, .f32⟩
  | 78 => ⟨S400000x1, .i32⟩
  | 79 => ⟨S100000x256, .f32⟩
  | 80 => ⟨S1x256, .f32⟩
  | 81 => ⟨S1x256, .f32⟩
  | 82 => ⟨S100000x256, .f32⟩
  | 83 => ⟨S1x256x256, .f32⟩
  | 84 => ⟨S256x256, .f32⟩
  | 85 => ⟨S1x256, .f32⟩
  | 86 => ⟨S256, .f32⟩
  | 87 => ⟨S1x256x256, .f32⟩
  | 88 => ⟨S256x256, .f32⟩
  | 89 => ⟨S1x256, .f32⟩
  | 90 => ⟨S256, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000x256, .f32⟩
  | 100 => ⟨S_, .f32⟩
  | 101 => ⟨S100000x256, .f32⟩
  | 102 => ⟨S400000x1, .i32⟩
  | 103 => ⟨S100000x256, .f32⟩
  | 104 => ⟨S1x256, .f32⟩
  | 105 => ⟨S1x256, .f32⟩
  | 106 => ⟨S100000x256, .f32⟩
  | 107 => ⟨S1x256x256, .f32⟩
  | 108 => ⟨S256x256, .f32⟩
  | 109 => ⟨S1x256, .f32⟩
  | 110 => ⟨S256, .f32⟩
  | 111 => ⟨S1x256x256, .f32⟩
  | 112 => ⟨S256x256, .f32⟩
  | 113 => ⟨S1x256, .f32⟩
  | 114 => ⟨S256, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S400000x256, .f32⟩
  | 124 => ⟨S_, .f32⟩
  | 125 => ⟨S100000x256, .f32⟩
  | 126 => ⟨S400000x1, .i32⟩
  | 127 => ⟨S100000x256, .f32⟩
  | _ => ⟨S100000x11, .f32⟩

abbrev hbmTy0_1 (i : Nat) : BufTy := match i % 128 with
  | 0 => ⟨S1x256, .f32⟩
  | 1 => ⟨S1x256, .f32⟩
  | 2 => ⟨S100000x256, .f32⟩
  | 3 => ⟨S_, .f32⟩
  | 4 => ⟨S5000x256, .f32⟩
  | 5 => ⟨S100000x1, .i32⟩
  | 6 => ⟨S5000x256, .f32⟩
  | 7 => ⟨S_, .f32⟩
  | 8 => ⟨S100000, .f32⟩
  | 9 => ⟨S_, .f32⟩
  | 10 => ⟨S5000, .f32⟩
  | 11 => ⟨S100000x1, .i32⟩
  | 12 => ⟨S5000, .f32⟩
  | 13 => ⟨S_, .f32⟩
  | 14 => ⟨S5000, .f32⟩
  | 15 => ⟨S5000, .f32⟩
  | 16 => ⟨S5000x1, .f32⟩
  | 17 => ⟨S5000x256, .f32⟩
  | 18 => ⟨S5000x256, .f32⟩
  | 19 => ⟨S1x256, .f32⟩
  | 20 => ⟨S1x1, .f32⟩
  | 21 => ⟨S5000x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | .local _ .vmem, ⟨0, _⟩ => ⟨S5000x11, .f32⟩
  | .local _ .vmem, ⟨1, _⟩ => ⟨S5000x11, .f32⟩
  | .local _ .vmem, ⟨2, _⟩ => ⟨S5000x11, .f32⟩
  | .local _ .vmem, ⟨3, _⟩ => ⟨S5000x11, .f32⟩
  | .local _ .vmem, ⟨4, _⟩ => ⟨S11x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | .local _ .vmem, ⟨30, _⟩ => ⟨S5000x256, .f32⟩
  | .local _ .vmem, ⟨31, _⟩ => ⟨S5000x256, .f32⟩
  | .local _ .vmem, ⟨32, _⟩ => ⟨S5000x256, .f32⟩
  | .local _ .vmem, ⟨33, _⟩ => ⟨S5000x256, .f32⟩
  | .local _ .vmem, ⟨34, _⟩ => ⟨S256x256, .f32⟩
  | .local _ .vmem, ⟨35, _⟩ => ⟨S1x256, .f32⟩
  | .local _ .vmem, ⟨36, _⟩ => ⟨S256x256, .f32⟩
  | .local _ .vmem, ⟨37, _⟩ => ⟨S1x256, .f32⟩
  | .local _ .vmem, ⟨38, _⟩ => ⟨S5000x256, .f32⟩
  | .local _ .vmem, ⟨39, _⟩ => ⟨S5000x256, .f32⟩
  | .local _ .vmem, ⟨40, _⟩ => ⟨S5000x256, .f32⟩
  | .local _ .vmem, ⟨41, _⟩ => ⟨S5000x256, .f32⟩
  | .local _ .vmem, ⟨42, _⟩ => ⟨S5000x256, .f32⟩
  | .local _ .vmem, ⟨43, _⟩ => ⟨S5000x256, .f32⟩
  | .local _ .vmem, ⟨44, _⟩ => ⟨S256x256, .f32⟩
  | .local _ .vmem, ⟨45, _⟩ => ⟨S1x256, .f32⟩
  | .local _ .vmem, ⟨46, _⟩ => ⟨S256x256, .f32⟩
  | .local _ .vmem, ⟨47, _⟩ => ⟨S1x256, .f32⟩
  | .local _ .vmem, ⟨48, _⟩ => ⟨S5000x256, .f32⟩
  | .local _ .vmem, ⟨49, _⟩ => ⟨S5000x256, .f32⟩
  | .local _ .vmem, ⟨50, _⟩ => ⟨S5000x256, .f32⟩
  | .local _ .vmem, ⟨51, _⟩ => ⟨S256x256, .f32⟩
  | .local _ .vmem, ⟨52, _⟩ => ⟨S1x256, .f32⟩
  | .local _ .vmem, ⟨53, _⟩ => ⟨S256x1, .f32⟩
  | .local _ .vmem, ⟨54, _⟩ => ⟨S1x1, .f32⟩
  | .local _ .vmem, ⟨55, _⟩ => ⟨S5000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_4 : Ref sig .tc := ⟨.hbm, 67, rfl⟩
abbrev main_v46 : Ref sig .tc := ⟨.hbm, 68, rfl⟩
abbrev main_v47 : Ref sig .tc := ⟨.hbm, 69, rfl⟩
abbrev main_c_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_7 : Ref sig .tc := ⟨.hbm, 91, rfl⟩
abbrev main_v67 : Ref sig .tc := ⟨.hbm, 92, rfl⟩
abbrev main_v68 : Ref sig .tc := ⟨.hbm, 93, rfl⟩
abbrev main_c_8 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_9 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_10 : Ref sig .tc := ⟨.hbm, 115, rfl⟩
abbrev main_v88 : Ref sig .tc := ⟨.hbm, 116, rfl⟩
abbrev main_v89 : Ref sig .tc := ⟨.hbm, 117, rfl⟩
abbrev main_c_11 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_12 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_13 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_14 : Ref sig .tc := ⟨.hbm, 135, rfl⟩
abbrev main_v104 : Ref sig .tc := ⟨.hbm, 136, rfl⟩
abbrev main_cst_15 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_16 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S5000x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S5000x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x11 : S_.BroadcastsInDim S100000x11 (![] : Fin 0 → Fin S100000x11.rank)
  shapeCasts_S256_S1x256 : S256.ShapeCasts S1x256
  inb_S5000x11_S5000x11_0_0 : ∀ a, (![0, 0] : Fin 2 → Nat) a + S5000x11.size a ≤ S5000x11.size a
  h_S5000x11 : 0 < S5000x11.numel
  shapeCasts_S5000x11_S5000x11 : S5000x11.ShapeCasts S5000x11
  bitsLt_bf16_f32 : FTy.bits .bf16 < FTy.bits .f32
  inb_S11x256_S11x256_0_0 : ∀ a, (![0, 0] : Fin 2 → Nat) a + S11x256.size a ≤ S11x256.size a
  h_S11x256 : 0 < S11x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S5000x256_S5000x256_0_0 : ∀ a, (![0, 0] : Fin 2 → Nat) a + S5000x256.size a ≤ S5000x256.size a
  h_S5000x256 : 0 < S5000x256.numel
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S_S100000x256 : S_.BroadcastsInDim S100000x256 (![] : Fin 0 → Fin S100000x256.rank)
  shapeCasts_S5000x256_S5000x256 : S5000x256.ShapeCasts S5000x256
  shapeCasts_S256x256_S256x256 : S256x256.ShapeCasts S256x256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S5000x256 : S_.BroadcastsInDim S5000x256 (![] : Fin 0 → Fin S5000x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  shapeCasts_S1_S1x1 : S1.ShapeCasts S1x1
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x11_S400000x1_S400000x11_1_0_n_n_0_1_111_wf : GatherDims.WF S100000x11 S400000x1 S400000x11 [1] [0] [] [0] [] 1 ![1, 11]
  scatter_S100000x11_S400000x1_S400000x11_1_0_0_1_wf : ScatterDims.WF S100000x11 S400000x1 S400000x11 [1] [0] [0] 1
  dot_S5000x11_S11x256_S5000x256_1_0_0_1_n_n_wf : DotDims.WF S5000x11 S11x256 S5000x256 [1] [0] [0] [1] [] []
  dot_S5000x256_S256x256_S5000x256_1_0_0_1_n_n_wf : DotDims.WF S5000x256 S256x256 S5000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  scatter_S5000x256_S100000x1_S100000x256_1_0_0_1_wf : ScatterDims.WF S5000x256 S100000x1 S100000x256 [1] [0] [0] 1
  scatter_S5000_S100000x1_S100000_n_0_0_1_wf : ScatterDims.WF S5000 S100000x1 S100000 [] [0] [0] 1
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S100000x11.size a
  hwx0_0 : ∀ i : grid0.Coords, EltTy.bits .f32 = 32 ∨ (Rect.block (s := S100000x11) S5000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x11.size a ≤ S100000x11.size a
  hwx0_1 : ∀ i : grid0.Coords, EltTy.bits .f32 = 32 ∨ (Rect.block (s := S100000x11) S5000x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x256.size a ≤ S11x256.size a
  hwx0_2 : ∀ i : grid0.Coords, EltTy.bits .f32 = 32 ∨ (Rect.block (s := S11x256) S11x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S100000x256.size a
  hwx0_6 : ∀ i : grid0.Coords, EltTy.bits .f32 = 32 ∨ (Rect.block (s := S100000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S100000x256.size a
  hwx1_6 : ∀ i : grid1.Coords, EltTy.bits .f32 = 32 ∨ (Rect.block (s := S100000x256) S5000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S100000x256.size a
  hwx2_1 : ∀ i : grid2.Coords, EltTy.bits .f32 = 32 ∨ (Rect.block (s := S100000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x256.size a ≤ S100000x256.size a
  hwx2_6 : ∀ i : grid2.Coords, EltTy.bits .f32 = 32 ∨ (Rect.block (s := S100000x256) S5000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S100000x256.size a
  hwx3_1 : ∀ i : grid3.Coords, EltTy.bits .f32 = 32 ∨ (Rect.block (s := S100000x256) S5000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x256.size a ≤ S100000x256.size a
  hwx3_6 : ∀ i : grid3.Coords, EltTy.bits .f32 = 32 ∨ (Rect.block (s := S100000x256) S5000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x256.size a ≤ S100000x256.size a
  hwx4_1 : ∀ i : grid4.Coords, EltTy.bits .f32 = 32 ∨ (Rect.block (s := S100000x256) S5000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x256.size a ≤ S100000x256.size a
  hwx4_6 : ∀ i : grid4.Coords, EltTy.bits .f32 = 32 ∨ (Rect.block (s := S100000x256) S5000x256.size (cc4_transform_6 i) (hinb4_6 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S5000x256.size a
  hwx5_0 : ∀ i : grid5.Coords, EltTy.bits .f32 = 32 ∨ (Rect.block (s := S5000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x1.size a ≤ S256x1.size a
  hwx5_3 : ∀ i : grid5.Coords, EltTy.bits .f32 = 32 ∨ (Rect.block (s := S256x1) S256x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S5000x1.size a
  hwx5_5 : ∀ i : grid5.Coords, EltTy.bits .f32 = 32 ∨ (Rect.block (s := S5000x1) S5000x1.size (cc5_transform_5 i) (hinb5_5 i)).WholeWords (EltTy.packing .f32)

variable [Facts₀]

def gather_S100000x11_S400000x1_S400000x11_1_0_n_n_0_1_111 : GatherDims S100000x11 S400000x1 S400000x11 where
  offsetDims := [1]
  collapsedSliceDims := [0]
  operandBatchingDims := []
  startIndicesBatchingDims := []
  startIndexMap := [0]
  indexVectorDim := 1
  sliceSizes := ![1, 11]
  wf := gather_S100000x11_S400000x1_S400000x11_1_0_n_n_0_1_111_wf
def scatter_S100000x11_S400000x1_S400000x11_1_0_0_1 : ScatterDims S100000x11 S400000x1 S400000x11 where
  updateWindowDims := [1]
  insertedWindowDims := [0]
  scatterDimsToOperandDims := [0]
  indexVectorDim := 1
  wf := scatter_S100000x11_S400000x1_S400000x11_1_0_0_1_wf
def dot_S5000x11_S11x256_S5000x256_1_0_0_1_n_n : DotDims S5000x11 S11x256 S5000x256 where
  lhsContracting := [1]
  rhsContracting := [0]
  lhsNonContracting := [0]
  rhsNonContracting := [1]
  lhsBatch := []
  rhsBatch := []
  wf := dot_S5000x11_S11x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S5000x256_S100000x1_S100000x256_1_0_0_1 : ScatterDims S5000x256 S100000x1 S100000x256 where
  updateWindowDims := [1]
  insertedWindowDims := [0]
  scatterDimsToOperandDims := [0]
  indexVectorDim := 1
  wf := scatter_S5000x256_S100000x1_S100000x256_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S11x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S5000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v79) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S5000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S5000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v112) S5000x256.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v113) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S256x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v114) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v115) S5000x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x11 : Shape := ⟨2, ![100000, 11]⟩
abbrev S2x400000 : Shape := ⟨2, ![2, 400000]⟩
abbrev S100000 : Shape := ⟨1, ![100000]⟩
abbrev S11x256 : Shape := ⟨2, ![11, 256]⟩
abbrev S256 : Shape := ⟨1, ![256]⟩
abbrev S256x256 : Shape := ⟨2, ![256, 256]⟩
abbrev S4x256x256 : Shape := ⟨3, ![4, 256, 256]⟩
abbrev S4x256 : Shape := ⟨2, ![4, 256]⟩
abbrev S256x1 : Shape := ⟨2, ![256, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x11 : Shape := ⟨2, ![400000, 11]⟩
abbrev S100000x256 : Shape := ⟨2, ![100000, 256]⟩
abbrev S1x256 : Shape := ⟨2, ![1, 256]⟩
abbrev S1x256x256 : Shape := ⟨3, ![1, 256, 256]⟩
abbrev S400000x256 : Shape := ⟨2, ![400000, 256]⟩
abbrev S5000x256 : Shape := ⟨2, ![5000, 256]⟩
abbrev S100000x1 : Shape := ⟨2, ![100000, 1]⟩
abbrev S5000 : Shape := ⟨1, ![5000]⟩
abbrev S5000x1 : Shape := ⟨2, ![5000, 1]⟩
abbrev S1x1 : Shape := ⟨2, ![1, 1]⟩

abbrev nBuf : Space → Nat
  | .hbm => 215
  | .vmem => 0
  | .smem => 0
  | _ => 0

abbrev hbmTy0_0 (i : Nat) : BufTy := match i % 128 with
  | 0 => ⟨S100000x11, .f32⟩
  | 1 => ⟨S2x400000, .i32⟩
  | 2 => ⟨S100000, .i32⟩
  | 3 => ⟨S11x256, .f32⟩
  | 4 => ⟨S256, .f32⟩
  | 5 => ⟨S256x256, .f32⟩
  | 6 => ⟨S256, .f32⟩
  | 7 => ⟨S4x256x256, .f32⟩
  | 8 => ⟨S4x256, .f32⟩
  | 9 => ⟨S4x256x256, .f32⟩
  | 10 => ⟨S4x256, .f32⟩
  | 11 => ⟨S256x256, .f32⟩
  | 12 => ⟨S256, .f32⟩
  | 13 => ⟨S256x1, .f32⟩
  | 14 => ⟨S1, .f32⟩
  | 15 => ⟨S1x400000, .i32⟩
  | 16 => ⟨S400000, .i32⟩
  | 17 => ⟨S1x400000, .i32⟩
  | 18 => ⟨S400000, .i32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x11, .f32⟩
  | 28 => ⟨S_, .f32⟩
  | 29 => ⟨S100000x11, .f32⟩
  | 30 => ⟨S400000x1, .i32⟩
  | 31 => ⟨S100000x11, .f32⟩
  | 32 => ⟨S100000x11, .f32⟩
  | 33 => ⟨S100000x256, .f32⟩
  | 34 => ⟨S1x256, .f32⟩
  | 35 => ⟨S100000x256, .f32⟩
  | 36 => ⟨S100000x256, .f32⟩
  | 37 => ⟨S_, .f32⟩
  | 38 => ⟨S100000x256, .f32⟩
  | 39 => ⟨S100000x256, .f32⟩
  | 40 => ⟨S100000x256, .f32⟩
  | 41 => ⟨S1x256, .f32⟩
  | 42 => ⟨S100000x256, .f32⟩
  | 43 => ⟨S100000x256, .f32⟩
  | 44 => ⟨S_, .f32⟩
  | 45 => ⟨S100000x256, .f32⟩
  | 46 => ⟨S100000x256, .f32⟩
  | 47 => ⟨S1x256x256, .f32⟩
  | 48 => ⟨S256x256, .f32⟩
  | 49 => ⟨S1x256, .f32⟩
  | 50 => ⟨S256, .f32⟩
  | 51 => ⟨S1x256x256, .f32⟩
  | 52 => ⟨S256x256, .f32⟩
  | 53 => ⟨S1x256, .f32⟩
  | 54 => ⟨S256, .f32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S400000x256, .f32⟩
  | 64 => ⟨S_, .f32⟩
  | 65 => ⟨S100000x256, .f32⟩
  | 66 => ⟨S400000x1, .i32⟩
  | 67 => ⟨S100000x256, .f32⟩
  | 68 => ⟨S100000x256, .f32⟩
  | 69 => ⟨S100000x256, .f32⟩
  | 70 => ⟨S1x256, .f32⟩
  | 71 => ⟨S100000x256, .f32⟩
  | 72 => ⟨S100000x256, .f32⟩
  | 73 => ⟨S_, .f32⟩
  | 74 => ⟨S100000x256, .f32⟩
  | 75 => ⟨S100000x256, .f32⟩
  | 76 => ⟨S100000x256, .f32⟩
  | 77 => ⟨S1x256, .f32⟩
  | 78 => ⟨S100000x256, .f32⟩
  | 79 => ⟨S100000x256, .f32⟩
  | 80 => ⟨S_, .f32⟩
  | 81 => ⟨S100000x256, .f32⟩
  | 82 => ⟨S100000x256, .f32⟩
  | 83 => ⟨S1x256x256, .f32⟩
  | 84 => ⟨S256x256, .f32⟩
  | 85 => ⟨S1x256, .f32⟩
  | 86 => ⟨S256, .f32⟩
  | 87 => ⟨S1x256x256, .f32⟩
  | 88 => ⟨S256x256, .f32⟩
  | 89 => ⟨S1x256, .f32⟩
  | 90 => ⟨S256, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000x256, .f32⟩
  | 100 => ⟨S_, .f32⟩
  | 101 => ⟨S100000x256, .f32⟩
  | 102 => ⟨S400000x1, .i32⟩
  | 103 => ⟨S100000x256, .f32⟩
  | 104 => ⟨S100000x256, .f32⟩
  | 105 => ⟨S100000x256, .f32⟩
  | 106 => ⟨S1x256, .f32⟩
  | 107 => ⟨S100000x256, .f32⟩
  | 108 => ⟨S100000x256, .f32⟩
  | 109 => ⟨S_, .f32⟩
  | 110 => ⟨S100000x256, .f32⟩
  | 111 => ⟨S100000x256, .f32⟩
  | 112 => ⟨S100000x256, .f32⟩
  | 113 => ⟨S1x256, .f32⟩
  | 114 => ⟨S100000x256, .f32⟩
  | 115 => ⟨S100000x256, .f32⟩
  | 116 => ⟨S_, .f32⟩
  | 117 => ⟨S100000x256, .f32⟩
  | 118 => ⟨S100000x256, .f32⟩
  | 119 => ⟨S1x256x256, .f32⟩
  | 120 => ⟨S256x256, .f32⟩
  | 121 => ⟨S1x256, .f32⟩
  | 122 => ⟨S256, .f32⟩
  | 123 => ⟨S1x256x256, .f32⟩
  | 124 => ⟨S256x256, .f32⟩
  | 125 => ⟨S1x256, .f32⟩
  | 126 => ⟨S256, .f32⟩
  | 127 => ⟨S_, .i32⟩
  | _ => ⟨S100000x11, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x256, .f32⟩
  | 8 => ⟨S_, .f32⟩
  | 9 => ⟨S100000x256, .f32⟩
  | 10 => ⟨S400000x1, .i32⟩
  | 11 => ⟨S100000x256, .f32⟩
  | 12 => ⟨S100000x256, .f32⟩
  | 13 => ⟨S100000x256, .f32⟩
  | 14 => ⟨S1x256, .f32⟩
  | 15 => ⟨S100000x256, .f32⟩
  | 16 => ⟨S100000x256, .f32⟩
  | 17 => ⟨S_, .f32⟩
  | 18 => ⟨S100000x256, .f32⟩
  | 19 => ⟨S100000x256, .f32⟩
  | 20 => ⟨S100000x256, .f32⟩
  | 21 => ⟨S1x256, .f32⟩
  | 22 => ⟨S100000x256, .f32⟩
  | 23 => ⟨S100000x256, .f32⟩
  | 24 => ⟨S_, .f32⟩
  | 25 => ⟨S100000x256, .f32⟩
  | 26 => ⟨S100000x256, .f32⟩
  | 27 => ⟨S1x256x256, .f32⟩
  | 28 => ⟨S256x256, .f32⟩
  | 29 => ⟨S1x256, .f32⟩
  | 30 => ⟨S256, .f32⟩
  | 31 => ⟨S1x256x256, .f32⟩
  | 32 => ⟨S256x256, .f32⟩
  | 33 => ⟨S1x256, .f32⟩
  | 34 => ⟨S256, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x256, .f32⟩
  | 44 => ⟨S_, .f32⟩
  | 45 => ⟨S100000x256, .f32⟩
  | 46 => ⟨S400000x1, .i32⟩
  | 47 => ⟨S100000x256, .f32⟩
  | 48 => ⟨S100000x256, .f32⟩
  | 49 => ⟨S100000x256, .f32⟩
  | 50 => ⟨S1x256, .f32⟩
  | 51 => ⟨S100000x256, .f32⟩
  | 52 => ⟨S100000x256, .f32⟩
  | 53 => ⟨S_, .f32⟩
  | 54 => ⟨S100000x256, .f32⟩
  | 55 => ⟨S100000x256, .f32⟩
  | 56 => ⟨S100000x256, .f32⟩
  | 57 => ⟨S1x256, .f32⟩
  | 58 => ⟨S100000x256, .f32⟩
  | 59 => ⟨S100000x256, .f32⟩
  | 60 => ⟨S_, .f32⟩
  | 61 => ⟨S100000x256, .f32⟩
  | 62 => ⟨S100000x256, .f32⟩
  | 63 => ⟨S_, .f32⟩
  | 64 => ⟨S5000x256, .f32⟩
  | 65 => ⟨S100000x1, .i32⟩
  | 66 => ⟨S5000x256, .f32⟩
  | 67 => ⟨S_, .f32⟩
  | 68 => ⟨S100000, .f32⟩
  | 69 => ⟨S_, .f32⟩
  | 70 => ⟨S5000, .f32⟩
  | 71 => ⟨S100000x1, .i32⟩
  | 72 => ⟨S5000, .f32⟩
  | 73 => ⟨S_, .f32⟩
  | 74 => ⟨S5000, .f32⟩
  | 75 => ⟨S5000, .f32⟩
  | 76 => ⟨S5000x1, .f32⟩
  | 77 => ⟨S5000x256, .f32⟩
  | 78 => ⟨S5000x256, .f32⟩
  | 79 => ⟨S5000x256, .f32⟩
  | 80 => ⟨S1x256, .f32⟩
  | 81 => ⟨S5000x256, .f32⟩
  | 82 => ⟨S5000x256, .f32⟩
  | 83 => ⟨S5000x1, .f32⟩
  | 84 => ⟨S1x1, .f32⟩
  | 85 => ⟨S5000x1, .f32⟩
  | 86 => ⟨S5000x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_1 : Ref sig .tc := ⟨.hbm, 55, rfl⟩
abbrev main_v33 : Ref sig .tc := ⟨.hbm, 56, rfl⟩
abbrev main_v34 : Ref sig .tc := ⟨.hbm, 57, rfl⟩
abbrev main_c_2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_cst : Ref sig .tc := ⟨.hbm, 73, rfl⟩
abbrev main_call2_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call3_cst : Ref sig .tc := ⟨.hbm, 80, rfl⟩
abbrev main_call3_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_4 : Ref sig .tc := ⟨.hbm, 91, rfl⟩
abbrev main_v62 : Ref sig .tc := ⟨.hbm, 92, rfl⟩
abbrev main_v63 : Ref sig .tc := ⟨.hbm, 93, rfl⟩
abbrev main_c_5 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_6 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call4_cst : Ref sig .tc := ⟨.hbm, 109, rfl⟩
abbrev main_call4_v0 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call5_cst : Ref sig .tc := ⟨.hbm, 116, rfl⟩
abbrev main_call5_v0 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_7 : Ref sig .tc := ⟨.hbm, 127, rfl⟩
abbrev main_v91 : Ref sig .tc := ⟨.hbm, 128, rfl⟩
abbrev main_v92 : Ref sig .tc := ⟨.hbm, 129, rfl⟩
abbrev main_c_8 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_9 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_call6_cst : Ref sig .tc := ⟨.hbm, 145, rfl⟩
abbrev main_call6_v0 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_call7_cst : Ref sig .tc := ⟨.hbm, 152, rfl⟩
abbrev main_call7_v0 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_10 : Ref sig .tc := ⟨.hbm, 163, rfl⟩
abbrev main_v120 : Ref sig .tc := ⟨.hbm, 164, rfl⟩
abbrev main_v121 : Ref sig .tc := ⟨.hbm, 165, rfl⟩
abbrev main_c_11 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_12 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_call8_cst : Ref sig .tc := ⟨.hbm, 181, rfl⟩
abbrev main_call8_v0 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_call9_cst : Ref sig .tc := ⟨.hbm, 188, rfl⟩
abbrev main_call9_v0 : Ref sig .tc := ⟨.hbm, 189, rfl⟩
abbrev main_v140 : Ref sig .tc := ⟨.hbm, 190, rfl⟩
abbrev main_cst_13 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_14 : Ref sig .tc := ⟨.hbm, 195, rfl⟩
abbrev main_v144 : Ref sig .tc := ⟨.hbm, 196, rfl⟩
abbrev main_cst_15 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_16 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x11 : S_.BroadcastsInDim S100000x11 (![] : Fin 0 → Fin S100000x11.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S5000x256 : S_.BroadcastsInDim S5000x256 (![] : Fin 0 → Fin S5000x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  bcast_S1x256_S5000x256_0_1 : S1x256.BroadcastsInDim S5000x256 (![0, 1] : Fin 2 → Fin S5000x256.rank)
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  gather_S100000x11_S400000x1_S400000x11_1_0_n_n_0_1_111_wf : GatherDims.WF S100000x11 S400000x1 S400000x11 [1] [0] [] [0] [] 1 ![1, 11]
  scatter_S100000x11_S400000x1_S400000x11_1_0_0_1_wf : ScatterDims.WF S100000x11 S400000x1 S400000x11 [1] [0] [0] 1
  dot_S100000x11_S11x256_S100000x256_1_0_0_1_n_n_wf : DotDims.WF S100000x11 S11x256 S100000x256 [1] [0] [0] [1] [] []
  dot_S100000x256_S256x256_S100000x256_1_0_0_1_n_n_wf : DotDims.WF S100000x256 S256x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  scatter_S5000x256_S100000x1_S100000x256_1_0_0_1_wf : ScatterDims.WF S5000x256 S100000x1 S100000x256 [1] [0] [0] 1
  scatter_S5000_S100000x1_S100000_n_0_0_1_wf : ScatterDims.WF S5000 S100000x1 S100000 [] [0] [0] 1
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []

variable [Facts₀]

def gather_S100000x11_S400000x1_S400000x11_1_0_n_n_0_1_111 : GatherDims S100000x11 S400000x1 S400000x11 where
  offsetDims := [1]
  collapsedSliceDims := [0]
  operandBatchingDims := []
  startIndicesBatchingDims := []
  startIndexMap := [0]
  indexVectorDim := 1
  sliceSizes := ![1, 11]
  wf := gather_S100000x11_S400000x1_S400000x11_1_0_n_n_0_1_111_wf
def scatter_S100000x11_S400000x1_S400000x11_1_0_0_1 : ScatterDims S100000x11 S400000x1 S400000x11 where
  updateWindowDims := [1]
  insertedWindowDims := [0]
  scatterDimsToOperandDims := [0]
  indexVectorDim := 1
  wf := scatter_S100000x11_S400000x1_S400000x11_1_0_0_1_wf
def dot_S100000x11_S11x256_S100000x256_1_0_0_1_n_n : DotDims S100000x11 S11x256 S100000x256 where
  lhsContracting := [1]
  rhsContracting := [0]
  lhsNonContracting := [0]
  rhsNonContracting := [1]
  lhsBatch := []
  rhsBatch := []
  wf := dot_S100000x11_S11x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S5000x256_S100000x1_S100000x256_1_0_0_1 : ScatterDims S5000x256 S100000x1 S100000x256 where
  updateWindowDims := [1]
  insertedWindowDims := [0]
  scatterDimsToOperandDims := [0]
  indexVectorDim := 1
  wf := scatter_S5000x256_S100000x1_S100000x256_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

class Facts : Prop extends Facts₀ where

variable [Facts]
-- ==== Proof.KRun.lean ====
/-
  How the six-region program ends.

  The program is a line of twelve segments: a stretch of host operations, a kernel region, a stretch, a region, and
  so on.  The buffer contents at each boundary are a fold from the launch memory: a host stretch applies its
  operations, a region replaces its arrays by what its write-backs leave and keeps every other buffer.  Launched from
  any memory with all counters at zero, every weakly fair execution terminates, and at the end every buffer that is
  not scoped to a region holds, on every core, the contents of the last boundary.  From that one reading both the
  result buffer and the unchanged arguments follow.
-/
import proofs.«166179_j72456098284043_1_alg».proof.Proof.Gen.KernelIdeal.Frame

set_option maxRecDepth 16384

noncomputable section

namespace Cert.GinKernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The final reading: core `c`'s unscoped buffers all hold the last boundary's contents. -/
abbrev EndsAtLast (c : Dev nD) (s : MemSt nD τ sig (Elt F)) : Prop :=
  ∀ b ∈ Pipeline.ucRefs τ sig, s.mem (((c : Thread nD τ)).1, b) = W12 m ρ c b

set_option backward.isDefEq.respectTransparency.types false in
/-- Every weakly fair execution of the program terminates without a fault, and ends with every unscoped buffer of
    every core at the last boundary's contents. -/
theorem run_ends : θ_run defs (onTc (τ := τ) (main (F := F))) ⟨m, fun _ => 0, ρ⟩
    (fun r => ∀ c : Dev nD, EndsAtLast m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => EndsAtLast m ρ c s)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result buffer is not scoped to a region, so the run ends with it at the last boundary's contents. -/
theorem result_unscoped : Proc.devRef .tc main_v115 ∈ Pipeline.ucRefs τ sig := mem_uc main_v115 (by decide)

end Cert.GinKernel

end
-- ==== Proof.LibDenseSpec.lean ====
/-
  The dense part of one graph-isomorphism layer and the read-out head, entry by entry over the extended reals.

  A layer takes the node features h and the summed neighbour features g (both N rows of K numbers), adds them,
  multiplies by a K x H matrix, adds a bias to every row, clamps below at zero, multiplies by an H x H matrix, adds a
  second bias and clamps again:
      out[r, c] = max( Σ_j max( Σ_k (h[r,k] + g[r,k]) · w1[k,j] + b1[j], 0 ) · w2[j,c] + b2[c], 0 ).
  The head is the same two products and biases without the clamps:
      out[r, c] = Σ_j ( Σ_k p[r,k] · w1[k,j] + b1[j] ) · w2[j,c] + b2[c].
  The biases enter as functions of the column, so that a bias stored as a vector and one stored as a one-row matrix
  are the same argument.  The zero of the clamp is kept as the float word both programs write.
-/
import Idealize.ShloMosaic.PureOps.Ideal.Laws
import Idealize.ShloMosaic.Lib.ValueIdx

noncomputable section

open scoped BigOperators

namespace Cert.Gin

open Idealize.ShloMosaic Idealize.ShloMosaic.ValueIdx

/-- The clamp's lower bound: the float word of +0.0, read as an extended real. -/
abbrev zeroWord : EReal := Ideal.ofBits .f32 0x00000000#32

/-- One layer's dense part at row `r`, column `c`. -/
def mlpAt {N K H : Nat} (h g : (⟨2, ![N, K]⟩ : Shape).Idx → EReal) (w1 : (⟨2, ![K, H]⟩ : Shape).Idx → EReal)
    (b1 : Fin H → EReal) (w2 : (⟨2, ![H, H]⟩ : Shape).Idx → EReal) (b2 : Fin H → EReal) (r : Fin N) (c : Fin H) : EReal :=
  max ((∑ j : Fin H, max ((∑ k : Fin K, (h (ix2 r k) + g (ix2 r k)) * w1 (ix2 k j)) + b1 j) zeroWord * w2 (ix2 j c)) + b2 c)
    zeroWord

/-- One layer's dense part as an array of N rows and H columns. -/
def mlpCore {N K H : Nat} (h g : (⟨2, ![N, K]⟩ : Shape).Idx → EReal) (w1 : (⟨2, ![K, H]⟩ : Shape).Idx → EReal)
    (b1 : Fin H → EReal) (w2 : (⟨2, ![H, H]⟩ : Shape).Idx → EReal) (b2 : Fin H → EReal) :
    (⟨2, ![N, H]⟩ : Shape).Idx → EReal :=
  fun i => mlpAt h g w1 b1 w2 b2 (i 0) (i 1)

theorem mlpCore_apply {N K H : Nat} (h g : (⟨2, ![N, K]⟩ : Shape).Idx → EReal) (w1 : (⟨2, ![K, H]⟩ : Shape).Idx → EReal)
    (b1 : Fin H → EReal) (w2 : (⟨2, ![H, H]⟩ : Shape).Idx → EReal) (b2 : Fin H → EReal) (r : Fin N) (c : Fin H) :
    mlpCore h g w1 b1 w2 b2 (ix2 r c) = mlpAt h g w1 b1 w2 b2 r c := rfl

/-- The head at row `r`, column `c`. -/
def headAt {G H O : Nat} (p : (⟨2, ![G, H]⟩ : Shape).Idx → EReal) (w1 : (⟨2, ![H, H]⟩ : Shape).Idx → EReal)
    (b1 : Fin H → EReal) (w2 : (⟨2, ![H, O]⟩ : Shape).Idx → EReal) (b2 : Fin O → EReal) (r : Fin G) (c : Fin O) : EReal :=
  (∑ j : Fin H, ((∑ k : Fin H, p (ix2 r k) * w1 (ix2 k j)) + b1 j) * w2 (ix2 j c)) + b2 c

/-- The head as an array of G rows and O columns. -/
def headCore {G H O : Nat} (p : (⟨2, ![G, H]⟩ : Shape).Idx → EReal) (w1 : (⟨2, ![H, H]⟩ : Shape).Idx → EReal)
    (b1 : Fin H → EReal) (w2 : (⟨2, ![H, O]⟩ : Shape).Idx → EReal) (b2 : Fin O → EReal) :
    (⟨2, ![G, O]⟩ : Shape).Idx → EReal :=
  fun i => headAt p w1 b1 w2 b2 (i 0) (i 1)

theorem headCore_apply {G H O : Nat} (p : (⟨2, ![G, H]⟩ : Shape).Idx → EReal) (w1 : (⟨2, ![H, H]⟩ : Shape).Idx → EReal)
    (b1 : Fin H → EReal) (w2 : (⟨2, ![H, O]⟩ : Shape).Idx → EReal) (b2 : Fin O → EReal) (r : Fin G) (c : Fin O) :
    headCore p w1 b1 w2 b2 (ix2 r c) = headAt p w1 b1 w2 b2 r c := rfl

end Cert.Gin

end
-- ==== Proof.LibDot.lean ====
/-
  A matrix product into a zero accumulator, read at one entry over the extended reals, for the two ways a
  rank-2 product contracts: the left operand's columns against the right operand's rows (entry (p, q) is
  Σ_k L[p, k] · R[k, q]), and the left operand's rows against the right operand's rows (entry (p, q) is
  Σ_k L[k, p] · R[k, q]). The contraction's index set has one axis; the sum is re-indexed by its one coordinate.
-/
import Idealize.ShloMosaic.PureOps.Ideal.Laws
import Idealize.ShloMosaic.Lib.ValueIdx

noncomputable section

open scoped BigOperators

namespace Cert.LibDot

open Idealize.ShloMosaic Idealize.ShloMosaic.ValueIdx

/-- Columns of the left operand against rows of the right: entry (p, q) is Σ_k L[p, k] · R[k, q]. -/
theorem matmul_cols_rows {M K N : Nat} {φ₁ φ₂ : FTy} (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂) (p : Fin M) (q : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p q)
      = ∑ k : Fin K, lhs (ix2 p k) * rhs (ix2 k q) := by
  rw [Ideal.matmul_constant_zero_apply, ← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 _ K rfl rfl).symm k) = ix2 p k := funext fun a => Fin.ext (by
    match a with
    | ⟨0, _⟩ =>
      unfold DotDims.lhsIdx
      rw [dif_neg (by exact List.not_mem_nil), dif_pos (by exact List.mem_singleton.mpr rfl)]
      rfl
    | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

/-- Rows of the left operand against rows of the right: entry (p, q) is Σ_k L[k, p] · R[k, q]. -/
theorem matmul_rows_rows {M K N : Nat} {φ₁ φ₂ : FTy} (wf : DotDims.WF ⟨2, ![K, M]⟩ ⟨2, ![K, N]⟩ ⟨2, ![M, N]⟩ [0] [0] [1] [1] [] [])
    (prec : Option ContractPrecision) (lhs : FVec Ideal ⟨2, ![K, M]⟩ φ₁) (rhs : FVec Ideal ⟨2, ![K, N]⟩ φ₂) (p : Fin M) (q : Fin N) :
    FloatOps.matmul (⟨[0], [0], [1], [1], [], [], wf⟩ : DotDims ⟨2, ![K, M]⟩ ⟨2, ![K, N]⟩ ⟨2, ![M, N]⟩) prec lhs rhs
        (constant ⟨2, ![M, N]⟩ .f32 0x00000000#32) (ix2 p q)
      = ∑ k : Fin K, lhs (ix2 k p) * rhs (ix2 k q) := by
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  have el : (⟨[0], [0], [1], [1], [], [], wf⟩ : DotDims ⟨2, ![K, M]⟩ ⟨2, ![K, N]⟩ ⟨2, ![M, N]⟩).lhsIdx (ix2 p q)
      ((contrEquiv1 _ K rfl rfl).symm k) = ix2 k p := funext fun a => Fin.ext (by
    match a with
    | ⟨0, _⟩ => exact (DotDims.lhsIdx_val_of_single _ rfl _ _).trans hk
    | ⟨1, _⟩ =>
      unfold DotDims.lhsIdx
      rw [dif_neg (by exact List.not_mem_nil), dif_pos (by exact List.mem_singleton.mpr rfl)]
      rfl)
  have er : (⟨[0], [0], [1], [1], [], [], wf⟩ : DotDims ⟨2, ![K, M]⟩ ⟨2, ![K, N]⟩ ⟨2, ![M, N]⟩).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

end Cert.LibDot

end
-- ==== Proof.LibReadAt.lean ====
/-
  ARRAY OPERATIONS READ AT ONE ENTRY, over literal rank-2 and rank-1 shapes of arbitrary extents.

  A product of a matrix's columns against a matrix's rows is, entry by entry, the sum over the contracted
  coordinate; two arrays joined along their columns read the first piece at its columns and the second piece past
  them; a transposed matrix reads the matrix at the swapped pair; a block of consecutive rows reads the array at the
  shifted row; a row vector spread over the rows of a matrix (in two steps: to a one-row matrix, then over the rows)
  reads the vector at the column, and a column vector spread over the columns reads it at the row; a vector reshaped
  to a one-column or a one-row matrix reads the vector at the row, respectively the column.  Each statement names
  the entry by its coordinates and holds for every operand array.
-/
import Idealize.ShloMosaic.PureOps.Ideal.Laws
import Idealize.ShloMosaic.Lib.Pipeline.Value
import Idealize.ShloMosaic.Lib.ValueIdx

noncomputable section

open scoped BigOperators

namespace Cert.Sage.ReadAt

open Idealize.ShloMosaic Idealize.ShloMosaic.ValueIdx

/-! ## A product of a matrix's columns against a matrix's rows -/

/-- The host's `dot_general` contracting the left operand's columns against the right operand's rows, read at an
    entry over the extended reals: entry `(p, q)` is `Σ_k L[p, k] · R[k, q]`. The contraction's index set has one
    axis; the sum is re-indexed by its one coordinate. -/
theorem dotGeneral_cols_rows {M K N : Nat} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (q : Fin N) :
    Host.dotGeneral (⟨[1], [0], [0], [1], [], [], wf⟩ : DotDims ⟨2, ![M, K]⟩ ⟨2, ![K, N]⟩ ⟨2, ![M, N]⟩) prec lhs rhs
        (ix2 p q)
      = ∑ k : Fin K, lhs (ix2 p k) * rhs (ix2 k q) := by
  simp only [Host.dotGeneral]
  rw [Ideal.dotGeneral_apply, ← Equiv.sum_comp (contrEquiv1 _ K rfl rfl).symm]
  refine Finset.sum_congr rfl fun k _ => ?_
  have hk := contrEquiv1_symm_val
    (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 _ K rfl rfl).symm k) = ix2 p k := funext fun a => Fin.ext (by
    match a with
    | ⟨0, _⟩ =>
      unfold DotDims.lhsIdx
      rw [dif_neg (by exact List.not_mem_nil), dif_pos (by exact List.mem_singleton.mpr rfl)]
      rfl
    | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

/-! ## Two arrays joined along their columns -/

/-- Two arrays with the same rows joined along the column axis, read at a column of the FIRST piece: the first
    piece's entry. The joined width `C` is the sum of the two widths (that is part of `h`). -/
theorem concat_cols_left {M A B C : Nat} {α : Type} (x₁ : (⟨2, ![M, A]⟩ : Shape).Idx → α)
    (x₂ : (⟨2, ![M, B]⟩ : Shape).Idx → α)
    (h : Shape.Concatenates [⟨2, ![M, A]⟩, ⟨2, ![M, B]⟩] ⟨2, ![M, C]⟩ 1) (r : Fin M) (k : Fin A) (hk : k.val < C) :
    concatenate ⟨2, ![M, C]⟩ 1 [⟨⟨2, ![M, A]⟩, x₁⟩, ⟨⟨2, ![M, B]⟩, x₂⟩] h (ix2 r ⟨k.val, hk⟩) = x₁ (ix2 r k) :=
  concatenate_pair_apply_left (1 : Fin 2) x₁ x₂ h (ix2 r ⟨k.val, hk⟩) rfl (ix2 r k)
    (fun b => match b with | ⟨0, _⟩ => rfl | ⟨1, _⟩ => rfl)

/-- The same joined array read at a column of the SECOND piece, the first piece's width further along: the second
    piece's entry. -/
theorem concat_cols_right {M A B C : Nat} {α : Type} (x₁ : (⟨2, ![M, A]⟩ : Shape).Idx → α)
    (x₂ : (⟨2, ![M, B]⟩ : Shape).Idx → α)
    (h : Shape.Concatenates [⟨2, ![M, A]⟩, ⟨2, ![M, B]⟩] ⟨2, ![M, C]⟩ 1) (r : Fin M) (k : Fin B)
    (hk : A + k.val < C) :
    concatenate ⟨2, ![M, C]⟩ 1 [⟨⟨2, ![M, A]⟩, x₁⟩, ⟨⟨2, ![M, B]⟩, x₂⟩] h (ix2 r ⟨A + k.val, hk⟩) = x₂ (ix2 r k) :=
  concatenate_pair_apply_right (1 : Fin 2) x₁ x₂ h (ix2 r ⟨A + k.val, hk⟩) rfl rfl (ix2 r k)
    (fun b => match b with
      | ⟨0, _⟩ => fun _ => rfl
      | ⟨1, _⟩ => fun hne => absurd rfl hne)
    (by show k.val + A = A + k.val; omega)

/-! ## A transposed matrix -/

/-- A transposed matrix read at `(k, j)` is the matrix at `(j, k)`. -/
theorem transpose10_apply {A B : Nat} {α : Type} (x : (⟨2, ![A, B]⟩ : Shape).Idx → α)
    (h : (⟨2, ![A, B]⟩ : Shape).Transposes [1, 0] ⟨2, ![B, A]⟩) (k : Fin B) (j : Fin A) :
    transpose ⟨2, ![B, A]⟩ [1, 0] x h (ix2 k j) = x (ix2 j k) :=
  transpose_apply [1, 0] x h (ix2 k j) (ix2 j k) (fun b => match b with | ⟨0, _⟩ => rfl | ⟨1, _⟩ => rfl)

/-! ## A block of consecutive rows -/

/-- The block of `K` consecutive rows starting at row `off`, read at `(k, j)`: the array at `(off + k, j)`. -/
theorem slice_rows_apply {R C K off : Nat} {α : Type} (x : (⟨2, ![R, C]⟩ : Shape).Idx → α)
    (h : (⟨2, ![R, C]⟩ : Shape).Slices ![off, 0] ⟨2, ![K, C]⟩) (k : Fin K) (j : Fin C) (hk : off + k.val < R) :
    extractStridedSlice ⟨2, ![K, C]⟩ ![off, 0] x h (ix2 k j) = x (ix2 ⟨off + k.val, hk⟩ j) :=
  extractStridedSlice_apply ![off, 0] x h (ix2 k j) (ix2 ⟨off + k.val, hk⟩ j) (fun a => match a with
    | ⟨0, _⟩ => rfl
    | ⟨1, _⟩ => by show j.val = 0 + j.val; omega)

/-! ## A vector spread over a matrix -/

/-- A vector of length `N` made a one-row matrix and then spread over `M` rows, read at `(r, j)`: the vector at
    `j` (a bias added to every row). -/
theorem bias_apply {M N : Nat} {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    broadcastInDim ⟨2, ![M, N]⟩ ![0, 1] h2 (broadcastInDim ⟨2, ![1, N]⟩ ![1] h1 b) (ix2 r j) = b (ix1 j) := by
  have hj : j.val = if N = 1 then 0 else j.val := by
    split_ifs with hN
    · have := j.isLt; omega
    · rfl
  refine (broadcastInDim_apply (s := ⟨2, ![1, N]⟩) (t := ⟨2, ![M, N]⟩) ![0, 1] h2 _ (ix2 r j) (ix2 (0 : Fin 1) j) (fun a => match a with
    | ⟨0, _⟩ => by show (0 : ℕ) = if (1 : ℕ) = 1 then 0 else r.val; rw [if_pos rfl]
    | ⟨1, _⟩ => by exact hj)).trans ?_
  exact broadcastInDim_apply (s := ⟨1, ![N]⟩) (t := ⟨2, ![1, N]⟩) ![1] h1 b (ix2 (0 : Fin 1) j) (ix1 j) (fun a => match a with
    | ⟨0, _⟩ => by exact hj)

/-- A vector of length `M` made a one-column matrix and then spread over `N` columns, read at `(r, k)`: the
    vector at `r` (a per-row quantity repeated along the row). -/
theorem col_apply {M N : Nat} {α : Type} (d : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (r : Fin M) (k : Fin N) :
    broadcastInDim ⟨2, ![M, N]⟩ ![0, 1] h2 (broadcastInDim ⟨2, ![M, 1]⟩ ![0] h1 d) (ix2 r k) = d (ix1 r) := by
  have hr : r.val = if M = 1 then 0 else r.val := by
    split_ifs with hM
    · have := r.isLt; omega
    · rfl
  refine (broadcastInDim_apply (s := ⟨2, ![M, 1]⟩) (t := ⟨2, ![M, N]⟩) ![0, 1] h2 _ (ix2 r k) (ix2 r (0 : Fin 1)) (fun a => match a with
    | ⟨0, _⟩ => by exact hr
    | ⟨1, _⟩ => by show (0 : ℕ) = if (1 : ℕ) = 1 then 0 else k.val; rw [if_pos rfl])).trans ?_
  exact broadcastInDim_apply (s := ⟨1, ![M]⟩) (t := ⟨2, ![M, 1]⟩) ![0] h1 d (ix2 r (0 : Fin 1)) (ix1 r) (fun a => match a with
    | ⟨0, _⟩ => by exact hr)

/-! ## A vector reshaped to a matrix with one column or one row -/

/-- A vector of length `M` reshaped to a one-column matrix, read at `(r, 0)`: the vector at `r`. -/
theorem col_reshape_apply {M : Nat} {α : Type} (x : (⟨1, ![M]⟩ : Shape).Idx → α)
    (h : (⟨1, ![M]⟩ : Shape).ShapeCasts ⟨2, ![M, 1]⟩) (r : Fin M) :
    shapeCast ⟨2, ![M, 1]⟩ x h (ix2 r 0) = x (ix1 r) :=
  shapeCast_apply x h (ix2 r 0) (ix1 r) (by
    rw [Shape.rowMajor_val_one, Shape.rowMajor_val_two]
    show r.val = r.val * 1 + 0
    omega)

/-- A vector of length `N` reshaped to a one-row matrix, read at `(0, j)`: the vector at `j`. -/
theorem row_reshape_apply {N : Nat} {α : Type} (x : (⟨1, ![N]⟩ : Shape).Idx → α)
    (h : (⟨1, ![N]⟩ : Shape).ShapeCasts ⟨2, ![1, N]⟩) (j : Fin N) :
    shapeCast ⟨2, ![1, N]⟩ x h (ix2 0 j) = x (ix1 j) :=
  shapeCast_apply x h (ix2 0 j) (ix1 j) (by
    rw [Shape.rowMajor_val_one, Shape.rowMajor_val_two]
    show j.val = 0 * N + j.val
    omega)

end Cert.Sage.ReadAt

end
-- ==== Proof.LibDense.lean ====
/-
  The two spellings of a dense block, read at one entry.

  Inside the kernel a dense block is spelled with matrix products into a zero accumulator, format changes (the
  identity on extended reals), a one-row bias matrix spread over the rows, and a clamp against a splat of the zero
  word.  On the host it is spelled with `dot_general`, a bias vector made a one-row matrix and then spread over the rows,
  and a clamp against the broadcast scalar zero word.  Read at row p, column q, both are the same nested sum: the
  product contracts the left operand's columns against the right operand's rows, a spread row contributes its entry at
  the column, and the format changes disappear.  The same for the head, which has no clamps.
-/
import Idealize.ShloMosaic.PureOps.Ideal.Laws
import Idealize.ShloMosaic.Lib.ValueIdx
import Idealize.ShloMosaic.Lib.Pipeline.Value
import proofs.«166179_j72456098284043_1_alg».proof.Proof.LibDenseSpec
import proofs.«166179_j72456098284043_1_alg».proof.Proof.LibDot
import proofs.«166179_j72456098284043_1_alg».proof.Proof.LibReadAt

noncomputable section

open scoped BigOperators

namespace Cert.Gin

open Idealize.ShloMosaic Idealize.ShloMosaic.ValueIdx

/-- A one-row matrix spread over M rows, read at (p, j): the row's entry at column j. -/
theorem rowSpread_apply {M H : Nat} {α : Type} (b : (⟨2, ![1, H]⟩ : Shape).Idx → α)
    (h : (⟨2, ![1, H]⟩ : Shape).Broadcasts ⟨2, ![M, H]⟩) (p : Fin M) (j : Fin H) :
    broadcastTo ⟨2, ![M, H]⟩ b h (ix2 p j) = b (ix2 (0 : Fin 1) j) :=
  broadcastTo_apply b h (ix2 p j) (ix2 (0 : Fin 1) j) (fun a => match a with
    | ⟨0, _⟩ => by show (0 : ℕ) = if (1 : ℕ) = 1 then 0 else p.val; rw [if_pos rfl]
    | ⟨1, _⟩ => by
        show j.val = if H = 1 then 0 else j.val
        split_ifs with hH
        · have := j.isLt; omega
        · rfl)

/-- The scalar zero word broadcast over a whole array, at any entry: the zero word. -/
theorem zeroSpread_apply {s : Shape} (h : (⟨0, ![]⟩ : Shape).BroadcastsInDim s ![]) (i : s.Idx) :
    broadcastInDim s ![] h (constant (F := Ideal) ⟨0, ![]⟩ .f32 0x00000000#32) i = zeroWord :=
  broadcastInDim_apply ![] h _ i ix0 (fun a => a.elim0)

/-- The kernel body's dense block at (p, q). -/
theorem dense_payload {M K H : Nat}
    (wf1 : DotDims.WF ⟨2, ![M, K]⟩ ⟨2, ![K, H]⟩ ⟨2, ![M, H]⟩ [1] [0] [0] [1] [] [])
    (wf2 : DotDims.WF ⟨2, ![M, H]⟩ ⟨2, ![H, H]⟩ ⟨2, ![M, H]⟩ [1] [0] [0] [1] [] [])
    (hb : (⟨2, ![1, H]⟩ : Shape).Broadcasts ⟨2, ![M, H]⟩) (hlt : FTy.bits .bf16 < FTy.bits .f32)
    (x g : FVec Ideal ⟨2, ![M, K]⟩ .f32) (w1 : FVec Ideal ⟨2, ![K, H]⟩ .f32) (b1 : FVec Ideal ⟨2, ![1, H]⟩ .f32)
    (w2 : FVec Ideal ⟨2, ![H, H]⟩ .f32) (b2 : FVec Ideal ⟨2, ![1, H]⟩ .f32) (p : Fin M) (q : Fin H) :
    maximumf (addf (matmul (⟨[1], [0], [0], [1], [], [], wf2⟩ : DotDims ⟨2, ![M, H]⟩ ⟨2, ![H, H]⟩ ⟨2, ![M, H]⟩) none
        (truncf .bf16 (maximumf (addf (matmul (⟨[1], [0], [0], [1], [], [], wf1⟩ : DotDims ⟨2, ![M, K]⟩ ⟨2, ![K, H]⟩ ⟨2, ![M, H]⟩) none
              (truncf .bf16 (addf x g) hlt) (truncf .bf16 w1 hlt) (constant ⟨2, ![M, H]⟩ .f32 0x00000000#32))
            (broadcastTo ⟨2, ![M, H]⟩ b1 hb)) (broadcast ⟨2, ![M, H]⟩ (Scalar.ofBits .f32 0x00000000#32))) hlt)
        (truncf .bf16 w2 hlt) (constant ⟨2, ![M, H]⟩ .f32 0x00000000#32)) (broadcastTo ⟨2, ![M, H]⟩ b2 hb))
      (broadcast ⟨2, ![M, H]⟩ (Scalar.ofBits .f32 0x00000000#32)) (ix2 p q)
    = mlpAt x g w1 (fun j => b1 (ix2 (0 : Fin 1) j)) w2 (fun j => b2 (ix2 (0 : Fin 1) j)) p q := by
  unfold mlpAt
  have inner : ∀ j : Fin H,
      (truncf .bf16 (maximumf (addf (matmul (⟨[1], [0], [0], [1], [], [], wf1⟩ : DotDims ⟨2, ![M, K]⟩ ⟨2, ![K, H]⟩ ⟨2, ![M, H]⟩) none
              (truncf .bf16 (addf x g) hlt) (truncf .bf16 w1 hlt) (constant ⟨2, ![M, H]⟩ .f32 0x00000000#32))
            (broadcastTo ⟨2, ![M, H]⟩ b1 hb)) (broadcast ⟨2, ![M, H]⟩ (Scalar.ofBits .f32 0x00000000#32))) hlt) (ix2 p j)
        = max ((∑ k : Fin K, (x (ix2 p k) + g (ix2 p k)) * w1 (ix2 k j)) + b1 (ix2 (0 : Fin 1) j)) zeroWord := fun j => by
    show max (FloatOps.matmul _ none _ _ _ (ix2 p j) + broadcastTo _ b1 hb (ix2 p j)) _ = _
    rw [LibDot.matmul_cols_rows, rowSpread_apply]
    rfl
  show max (FloatOps.matmul _ none _ _ _ (ix2 p q) + broadcastTo _ b2 hb (ix2 p q)) _ = _
  rw [LibDot.matmul_cols_rows, rowSpread_apply]
  simp only [inner]
  rfl

/-- The host's dense block at (p, q). -/
theorem dense_host {N K H : Nat}
    (wf1 : DotDims.WF ⟨2, ![N, K]⟩ ⟨2, ![K, H]⟩ ⟨2, ![N, H]⟩ [1] [0] [0] [1] [] [])
    (wf2 : DotDims.WF ⟨2, ![N, H]⟩ ⟨2, ![H, H]⟩ ⟨2, ![N, H]⟩ [1] [0] [0] [1] [] [])
    (hr : (⟨1, ![H]⟩ : Shape).BroadcastsInDim ⟨2, ![1, H]⟩ ![1])
    (hs : (⟨2, ![1, H]⟩ : Shape).BroadcastsInDim ⟨2, ![N, H]⟩ ![0, 1])
    (hz : (⟨0, ![]⟩ : Shape).BroadcastsInDim ⟨2, ![N, H]⟩ ![])
    (x g : FVec Ideal ⟨2, ![N, K]⟩ .f32) (w1 : FVec Ideal ⟨2, ![K, H]⟩ .f32) (b1 : FVec Ideal ⟨1, ![H]⟩ .f32)
    (w2 : FVec Ideal ⟨2, ![H, H]⟩ .f32) (b2 : FVec Ideal ⟨1, ![H]⟩ .f32) (p : Fin N) (q : Fin H) :
    maximumf (addf (Host.dotGeneral (⟨[1], [0], [0], [1], [], [], wf2⟩ : DotDims ⟨2, ![N, H]⟩ ⟨2, ![H, H]⟩ ⟨2, ![N, H]⟩) none
        (maximumf (addf (Host.dotGeneral (⟨[1], [0], [0], [1], [], [], wf1⟩ : DotDims ⟨2, ![N, K]⟩ ⟨2, ![K, H]⟩ ⟨2, ![N, H]⟩) none
              (addf x g) w1)
            (broadcastInDim ⟨2, ![N, H]⟩ ![0, 1] hs (broadcastInDim ⟨2, ![1, H]⟩ ![1] hr b1)))
          (broadcastInDim ⟨2, ![N, H]⟩ ![] hz (constant ⟨0, ![]⟩ .f32 0x00000000#32))) w2)
        (broadcastInDim ⟨2, ![N, H]⟩ ![0, 1] hs (broadcastInDim ⟨2, ![1, H]⟩ ![1] hr b2)))
      (broadcastInDim ⟨2, ![N, H]⟩ ![] hz (constant ⟨0, ![]⟩ .f32 0x00000000#32)) (ix2 p q)
    = mlpAt x g w1 (fun j => b1 (ix1 j)) w2 (fun j => b2 (ix1 j)) p q := by
  unfold mlpAt
  have inner : ∀ j : Fin H,
      (maximumf (addf (Host.dotGeneral (⟨[1], [0], [0], [1], [], [], wf1⟩ : DotDims ⟨2, ![N, K]⟩ ⟨2, ![K, H]⟩ ⟨2, ![N, H]⟩) none
              (addf x g) w1)
            (broadcastInDim ⟨2, ![N, H]⟩ ![0, 1] hs (broadcastInDim ⟨2, ![1, H]⟩ ![1] hr b1)))
          (broadcastInDim ⟨2, ![N, H]⟩ ![] hz (constant ⟨0, ![]⟩ .f32 0x00000000#32))) (ix2 p j)
        = max ((∑ k : Fin K, (x (ix2 p k) + g (ix2 p k)) * w1 (ix2 k j)) + b1 (ix1 j)) zeroWord := fun j => by
    show max (Host.dotGeneral _ none _ _ (ix2 p j) + broadcastInDim _ _ hs _ (ix2 p j)) (broadcastInDim _ _ hz _ (ix2 p j)) = _
    rw [Cert.Sage.ReadAt.dotGeneral_cols_rows, Cert.Sage.ReadAt.bias_apply, zeroSpread_apply]
    rfl
  show max (Host.dotGeneral _ none _ _ (ix2 p q) + broadcastInDim _ _ hs _ (ix2 p q)) (broadcastInDim _ _ hz _ (ix2 p q)) = _
  rw [Cert.Sage.ReadAt.dotGeneral_cols_rows, Cert.Sage.ReadAt.bias_apply, zeroSpread_apply]
  simp only [inner]

/-- The kernel body's head at (p, q). -/
theorem head_payload {M H O : Nat}
    (wf1 : DotDims.WF ⟨2, ![M, H]⟩ ⟨2, ![H, H]⟩ ⟨2, ![M, H]⟩ [1] [0] [0] [1] [] [])
    (wf2 : DotDims.WF ⟨2, ![M, H]⟩ ⟨2, ![H, O]⟩ ⟨2, ![M, O]⟩ [1] [0] [0] [1] [] [])
    (hb1 : (⟨2, ![1, H]⟩ : Shape).Broadcasts ⟨2, ![M, H]⟩) (hb2 : (⟨2, ![1, O]⟩ : Shape).Broadcasts ⟨2, ![M, O]⟩)
    (hlt : FTy.bits .bf16 < FTy.bits .f32)
    (x : FVec Ideal ⟨2, ![M, H]⟩ .f32) (w1 : FVec Ideal ⟨2, ![H, H]⟩ .f32) (b1 : FVec Ideal ⟨2, ![1, H]⟩ .f32)
    (w2 : FVec Ideal ⟨2, ![H, O]⟩ .f32) (b2 : FVec Ideal ⟨2, ![1, O]⟩ .f32) (p : Fin M) (q : Fin O) :
    addf (matmul (⟨[1], [0], [0], [1], [], [], wf2⟩ : DotDims ⟨2, ![M, H]⟩ ⟨2, ![H, O]⟩ ⟨2, ![M, O]⟩) none
        (truncf .bf16 (addf (matmul (⟨[1], [0], [0], [1], [], [], wf1⟩ : DotDims ⟨2, ![M, H]⟩ ⟨2, ![H, H]⟩ ⟨2, ![M, H]⟩) none
              (truncf .bf16 x hlt) (truncf .bf16 w1 hlt) (constant ⟨2, ![M, H]⟩ .f32 0x00000000#32))
            (broadcastTo ⟨2, ![M, H]⟩ b1 hb1)) hlt)
        (truncf .bf16 w2 hlt) (constant ⟨2, ![M, O]⟩ .f32 0x00000000#32)) (broadcastTo ⟨2, ![M, O]⟩ b2 hb2) (ix2 p q)
    = headAt x w1 (fun j => b1 (ix2 (0 : Fin 1) j)) w2 (fun j => b2 (ix2 (0 : Fin 1) j)) p q := by
  unfold headAt
  have inner : ∀ j : Fin H,
      (truncf .bf16 (addf (matmul (⟨[1], [0], [0], [1], [], [], wf1⟩ : DotDims ⟨2, ![M, H]⟩ ⟨2, ![H, H]⟩ ⟨2, ![M, H]⟩) none
              (truncf .bf16 x hlt) (truncf .bf16 w1 hlt) (constant ⟨2, ![M, H]⟩ .f32 0x00000000#32))
            (broadcastTo ⟨2, ![M, H]⟩ b1 hb1)) hlt) (ix2 p j)
        = (∑ k : Fin H, x (ix2 p k) * w1 (ix2 k j)) + b1 (ix2 (0 : Fin 1) j) := fun j => by
    show FloatOps.matmul _ none _ _ _ (ix2 p j) + broadcastTo _ b1 hb1 (ix2 p j) = _
    rw [LibDot.matmul_cols_rows, rowSpread_apply]
    rfl
  show FloatOps.matmul _ none _ _ _ (ix2 p q) + broadcastTo _ b2 hb2 (ix2 p q) = _
  rw [LibDot.matmul_cols_rows, rowSpread_apply]
  simp only [inner]
  rfl

/-- The host's head at (p, q). -/
theorem head_host {N H O : Nat}
    (wf1 : DotDims.WF ⟨2, ![N, H]⟩ ⟨2, ![H, H]⟩ ⟨2, ![N, H]⟩ [1] [0] [0] [1] [] [])
    (wf2 : DotDims.WF ⟨2, ![N, H]⟩ ⟨2, ![H, O]⟩ ⟨2, ![N, O]⟩ [1] [0] [0] [1] [] [])
    (hr1 : (⟨1, ![H]⟩ : Shape).BroadcastsInDim ⟨2, ![1, H]⟩ ![1])
    (hs1 : (⟨2, ![1, H]⟩ : Shape).BroadcastsInDim ⟨2, ![N, H]⟩ ![0, 1])
    (hr2 : (⟨1, ![O]⟩ : Shape).BroadcastsInDim ⟨2, ![1, O]⟩ ![1])
    (hs2 : (⟨2, ![1, O]⟩ : Shape).BroadcastsInDim ⟨2, ![N, O]⟩ ![0, 1])
    (x : FVec Ideal ⟨2, ![N, H]⟩ .f32) (w1 : FVec Ideal ⟨2, ![H, H]⟩ .f32) (b1 : FVec Ideal ⟨1, ![H]⟩ .f32)
    (w2 : FVec Ideal ⟨2, ![H, O]⟩ .f32) (b2 : FVec Ideal ⟨1, ![O]⟩ .f32) (p : Fin N) (q : Fin O) :
    addf (Host.dotGeneral (⟨[1], [0], [0], [1], [], [], wf2⟩ : DotDims ⟨2, ![N, H]⟩ ⟨2, ![H, O]⟩ ⟨2, ![N, O]⟩) none
        (addf (Host.dotGeneral (⟨[1], [0], [0], [1], [], [], wf1⟩ : DotDims ⟨2, ![N, H]⟩ ⟨2, ![H, H]⟩ ⟨2, ![N, H]⟩) none x w1)
          (broadcastInDim ⟨2, ![N, H]⟩ ![0, 1] hs1 (broadcastInDim ⟨2, ![1, H]⟩ ![1] hr1 b1))) w2)
      (broadcastInDim ⟨2, ![N, O]⟩ ![0, 1] hs2 (broadcastInDim ⟨2, ![1, O]⟩ ![1] hr2 b2)) (ix2 p q)
    = headAt x w1 (fun j => b1 (ix1 j)) w2 (fun j => b2 (ix1 j)) p q := by
  unfold headAt
  have inner : ∀ j : Fin H,
      (addf (Host.dotGeneral (⟨[1], [0], [0], [1], [], [], wf1⟩ : DotDims ⟨2, ![N, H]⟩ ⟨2, ![H, H]⟩ ⟨2, ![N, H]⟩) none x w1)
          (broadcastInDim ⟨2, ![N, H]⟩ ![0, 1] hs1 (broadcastInDim ⟨2, ![1, H]⟩ ![1] hr1 b1))) (ix2 p j)
        = (∑ k : Fin H, x (ix2 p k) * w1 (ix2 k j)) + b1 (ix1 j) := fun j => by
    show Host.dotGeneral _ none _ _ (ix2 p j) + broadcastInDim _ _ hs1 _ (ix2 p j) = _
    rw [Cert.Sage.ReadAt.dotGeneral_cols_rows, Cert.Sage.ReadAt.bias_apply]
  show Host.dotGeneral _ none _ _ (ix2 p q) + broadcastInDim _ _ hs2 _ (ix2 p q) = _
  rw [Cert.Sage.ReadAt.dotGeneral_cols_rows, Cert.Sage.ReadAt.bias_apply]
  simp only [inner]

end Cert.Gin

end
-- ==== Proof.KLayer0.lean ====
/-
  The first layer's kernel region, as one array.

  The region walks twenty grid points; at point t it fetches rows 5000·t … 5000·t + 4999 of the node features and of
  the aggregated neighbour features, the whole of both weight matrices and both one-row biases, and writes back the
  same rows of the output.  What it stores at row p, column q of its block is the layer function of the fetched
  blocks at (p, q); a row of a block is row 5000·t + p of its array, so the stored block is the block of one array:
  the layer function of the region's input arrays.  The twenty blocks tile the output (row r lies in block r / 5000),
  hence the output array ends as that function.
-/
import proofs.«166179_j72456098284043_1_alg».proof.Proof.Gen.KernelIdeal.Frame
import proofs.«166179_j72456098284043_1_alg».proof.Proof.LibDense
import Idealize.ShloMosaic.Lib.Pipeline.Value

set_option maxRecDepth 16384

noncomputable section

namespace Cert.GinKernel.Layer0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores at row p, column q of its block: the layer function of the loaded blocks. -/
theorem stored_apply (a0 a1 : Vec Ideal S5000x11 .f32) (a2 : Vec Ideal S11x256 .f32) (a3 : Vec Ideal S1x256 .f32)
    (a4 : Vec Ideal S256x256 .f32) (a5 : Vec Ideal S1x256 .f32) (p : Fin 5000) (q : Fin 256) :
    k0_pay1 (F := Ideal) a0 a1 a2 a3 a4 a5 (ix2 p q)
      = Cert.Gin.mlpAt a0 a1 a2 (fun j => a3 (ix2 (0 : Fin 1) j)) a4 (fun j => a5 (ix2 (0 : Fin 1) j)) p q := by
  unfold k0_pay1
  simp only [shapeCast_self]
  exact Cert.Gin.dense_payload _ _ _ _ a0 a1 a2 a3 a4 a5 p q

/-- The layer function of the region's input arrays as the region finds them. -/
abbrev layerOut (c : Dev nD) : S100000x256.Idx → EReal :=
  Cert.Gin.mlpCore (V c main_arg0) (V c main_v13) (V c main_arg3) (fun j => V c main_v14 (ix2 (0 : Fin 1) j)) (V c main_arg5)
    (fun j => V c main_v15 (ix2 (0 : Fin 1) j))

/-- The windows' block indices at every grid point: the row-tiled windows sit at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 1600000 in
/-- What point t writes back is block t of the layer function of the input arrays. -/
theorem flushed_eq (c : Dev nD) (t : Fin cfg0.N) :
    (dat0 V c).flushed 6 t = ((cfg0.win 6).blk t).view.read (Elt Ideal) (layerOut V c) := by
  show (cfg0.win 6).cut (grid0.coords t) ((dat0 V c).after 6 t) = _
  rw [after0_6]
  unfold out0_6
  rw [View.canon_unit_zero origin]
  simp only [View.ld_unit_zero (S := S5000x11) origin, View.ld_unit_zero (S := S11x256) origin,
    View.ld_unit_zero (S := S256x256) origin, View.ld_unit_zero (S := S1x256) origin]
  obtain ⟨e00, e01, e10, e11, e20, e21, e30, e31, e40, e41, e50, e51, e60, e61⟩ := idx_facts t
  have ht : t.val < 20 := lt_of_lt_of_eq t.isLt N_0
  funext j
  show k0_pay1 (F := Ideal) (fun y : S5000x11.Idx => V c main_arg0 (((cfg0.win 0).blk t).view.emb y))
      (fun y : S5000x11.Idx => V c main_v13 (((cfg0.win 1).blk t).view.emb y))
      (fun y : S11x256.Idx => V c main_arg3 (((cfg0.win 2).blk t).view.emb y))
      (fun y : S1x256.Idx => V c main_v14 (((cfg0.win 3).blk t).view.emb y))
      (fun y : S256x256.Idx => V c main_arg5 (((cfg0.win 4).blk t).view.emb y))
      (fun y : S1x256.Idx => V c main_v15 (((cfg0.win 5).blk t).view.emb y)) j
    = layerOut V c (((cfg0.win 6).blk t).view.emb j)
  obtain ⟨p, q, rfl⟩ : ∃ (p : Fin 5000) (q : Fin 256), j = ix2 p q := ⟨j 0, j 1, eq_ix2 j⟩
  rw [stored_apply]
  have hp : p.val < 5000 := p.isLt
  have hrow : t.val * 5000 + p.val < 100000 := by omega
  have h6 : ((cfg0.win 6).blk t).view.emb (ix2 p q) = ix2 (⟨t.val * 5000 + p.val, hrow⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 256 + 1 * q.val = q.val; omega
  have h0 : ∀ k : Fin 11, ((cfg0.win 0).blk t).view.emb (ix2 p k) = ix2 (⟨t.val * 5000 + p.val, hrow⟩ : Fin 100000) k := fun k => by
    funext a; apply Fin.ext
    match a with
    | ⟨0, _⟩ => show win0_0.index t (0 : Fin 2) * 5000 + 1 * p.val = t.val * 5000 + p.val; omega
    | ⟨1, _⟩ => show win0_0.index t (1 : Fin 2) * 11 + 1 * k.val = k.val; omega
  have h1 : ∀ k : Fin 11, ((cfg0.win 1).blk t).view.emb (ix2 p k) = ix2 (⟨t.val * 5000 + p.val, hrow⟩ : Fin 100000) k := fun k => by
    funext a; apply Fin.ext
    match a with
    | ⟨0, _⟩ => show win0_1.index t (0 : Fin 2) * 5000 + 1 * p.val = t.val * 5000 + p.val; omega
    | ⟨1, _⟩ => show win0_1.index t (1 : Fin 2) * 11 + 1 * k.val = k.val; omega
  have h2 : ∀ y : S11x256.Idx, ((cfg0.win 2).blk t).view.emb y = y := fun y => by
    funext a; apply Fin.ext
    match a with
    | ⟨0, _⟩ => show win0_2.index t (0 : Fin 2) * 11 + 1 * (y 0).val = (y 0).val; omega
    | ⟨1, _⟩ => show win0_2.index t (1 : Fin 2) * 256 + 1 * (y 1).val = (y 1).val; omega
  have h3 : ∀ y : S1x256.Idx, ((cfg0.win 3).blk t).view.emb y = y := fun y => by
    funext a; apply Fin.ext
    match a with
    | ⟨0, _⟩ => show win0_3.index t (0 : Fin 2) * 1 + 1 * (y 0).val = (y 0).val; omega
    | ⟨1, _⟩ => show win0_3.index t (1 : Fin 2) * 256 + 1 * (y 1).val = (y 1).val; omega
  have h4 : ∀ y : S256x256.Idx, ((cfg0.win 4).blk t).view.emb y = y := fun y => by
    funext a; apply Fin.ext
    match a with
    | ⟨0, _⟩ => show win0_4.index t (0 : Fin 2) * 256 + 1 * (y 0).val = (y 0).val; omega
    | ⟨1, _⟩ => show win0_4.index t (1 : Fin 2) * 256 + 1 * (y 1).val = (y 1).val; omega
  have h5 : ∀ y : S1x256.Idx, ((cfg0.win 5).blk t).view.emb y = y := fun y => by
    funext a; apply Fin.ext
    match a with
    | ⟨0, _⟩ => show win0_5.index t (0 : Fin 2) * 1 + 1 * (y 0).val = (y 0).val; omega
    | ⟨1, _⟩ => show win0_5.index t (1 : Fin 2) * 256 + 1 * (y 1).val = (y 1).val; omega
  rw [h6]
  refine Eq.trans ?_ (Cert.Gin.mlpCore_apply _ _ _ _ _ _ _ _).symm
  unfold Cert.Gin.mlpAt
  simp only [h0, h1, h2, h3, h4, h5]

/-- An entry of the output array lies in point t's block iff each coordinate lies in the block's range on its axis. -/
theorem mem_blk (t : Fin cfg0.N) (i : S100000x256.Idx) :
    i ∈ ((cfg0.win 6).blk t).view.set ↔ ∀ a : Fin 2, win0_6.index t a * S5000x256.size a ≤ (i a).val
      ∧ (i a).val < win0_6.index t a * S5000x256.size a + S5000x256.size a := by
  show i ∈ ((View.whole main_v16).slice (win0_6.rect t)).set ↔ _
  rw [View.set_slice_whole, Rect.mem_set_unit]
  exact Iff.rfl

/-- Every entry of the output array lies in some point's block: row r in block r / 5000. -/
theorem cover (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  have hlt : (i 0).val / 5000 < cfg0.N := lt_of_lt_of_eq (by omega : (i 0).val / 5000 < 20) N_0.symm
  obtain ⟨-, -, -, -, -, -, -, -, -, -, -, -, e60, e61⟩ := idx_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, hlt⟩ (1 : Fin 2) * 256 ≤ (i 1).val
      ∧ (i 1).val < win0_6.index ⟨(i 0).val / 5000, hlt⟩ (1 : Fin 2) * 256 + 256
    omega

/-- The region's output array after the region: the layer function of its input arrays. -/
theorem value (c : Dev nD) : (dat0 V c).arrAt 6 cfg0.N = layerOut V c :=
  (dat0 V c).arrAt_eq_of_cover 6 (layerOut V c) (fun t _ => flushed_eq V c t) cover

end Cert.GinKernel.Layer0

end
-- ==== Proof.KLayer1.lean ====
/-
  The second layer's kernel region, as one array.

  The region walks twenty grid points; at point t it fetches rows 5000·t … 5000·t + 4999 of the node features and of
  the aggregated neighbour features, the whole of both weight matrices and both one-row biases, and writes back the
  same rows of the output.  What it stores at row p, column q of its block is the layer function of the fetched
  blocks at (p, q); a row of a block is row 5000·t + p of its array, so the stored block is the block of one array:
  the layer function of the region's input arrays.  The twenty blocks tile the output (row r lies in block r / 5000),
  hence the output array ends as that function.
-/
import proofs.«166179_j72456098284043_1_alg».proof.Proof.Gen.KernelIdeal.Frame
import proofs.«166179_j72456098284043_1_alg».proof.Proof.LibDense
import Idealize.ShloMosaic.Lib.Pipeline.Value

set_option maxRecDepth 16384

noncomputable section

namespace Cert.GinKernel.Layer1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores at row p, column q of its block: the layer function of the loaded blocks. -/
theorem stored_apply (a0 a1 : Vec Ideal S5000x256 .f32) (a2 : Vec Ideal S256x256 .f32) (a3 : Vec Ideal S1x256 .f32)
    (a4 : Vec Ideal S256x256 .f32) (a5 : Vec Ideal S1x256 .f32) (p : Fin 5000) (q : Fin 256) :
    k1_pay1 (F := Ideal) a0 a1 a2 a3 a4 a5 (ix2 p q)
      = Cert.Gin.mlpAt a0 a1 a2 (fun j => a3 (ix2 (0 : Fin 1) j)) a4 (fun j => a5 (ix2 (0 : Fin 1) j)) p q := by
  unfold k1_pay1
  simp only [shapeCast_self]
  exact Cert.Gin.dense_payload _ _ _ _ a0 a1 a2 a3 a4 a5 p q

/-- The layer function of the region's input arrays as the region finds them. -/
abbrev layerOut (c : Dev nD) : S100000x256.Idx → EReal :=
  Cert.Gin.mlpCore (V c main_v16) (V c main_v34) (V c main_v18) (fun j => V c main_v35 (ix2 (0 : Fin 1) j)) (V c main_v22)
    (fun j => V c main_v36 (ix2 (0 : Fin 1) j))

/-- The windows' block indices at every grid point: the row-tiled windows sit at block (t, 0), the others at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 1600000 in
/-- What point t writes back is block t of the layer function of the input arrays. -/
theorem flushed_eq (c : Dev nD) (t : Fin cfg1.N) :
    (dat1 V c).flushed 6 t = ((cfg1.win 6).blk t).view.read (Elt Ideal) (layerOut V c) := by
  show (cfg1.win 6).cut (grid1.coords t) ((dat1 V c).after 6 t) = _
  rw [after1_6]
  unfold out1_6
  rw [View.canon_unit_zero origin]
  simp only [View.ld_unit_zero (S := S5000x256) origin, View.ld_unit_zero (S := S256x256) origin,
    View.ld_unit_zero (S := S256x256) origin, View.ld_unit_zero (S := S1x256) origin]
  obtain ⟨e00, e01, e10, e11, e20, e21, e30, e31, e40, e41, e50, e51, e60, e61⟩ := idx_facts t
  have ht : t.val < 20 := lt_of_lt_of_eq t.isLt N_1
  funext j
  show k1_pay1 (F := Ideal) (fun y : S5000x256.Idx => V c main_v16 (((cfg1.win 0).blk t).view.emb y))
      (fun y : S5000x256.Idx => V c main_v34 (((cfg1.win 1).blk t).view.emb y))
      (fun y : S256x256.Idx => V c main_v18 (((cfg1.win 2).blk t).view.emb y))
      (fun y : S1x256.Idx => V c main_v35 (((cfg1.win 3).blk t).view.emb y))
      (fun y : S256x256.Idx => V c main_v22 (((cfg1.win 4).blk t).view.emb y))
      (fun y : S1x256.Idx => V c main_v36 (((cfg1.win 5).blk t).view.emb y)) j
    = layerOut V c (((cfg1.win 6).blk t).view.emb j)
  obtain ⟨p, q, rfl⟩ : ∃ (p : Fin 5000) (q : Fin 256), j = ix2 p q := ⟨j 0, j 1, eq_ix2 j⟩
  rw [stored_apply]
  have hp : p.val < 5000 := p.isLt
  have hrow : t.val * 5000 + p.val < 100000 := by omega
  have h6 : ((cfg1.win 6).blk t).view.emb (ix2 p q) = ix2 (⟨t.val * 5000 + p.val, hrow⟩ : Fin 100000) q := by
    funext a; apply Fin.ext
    match a with
    | ⟨0, _⟩ => show win1_6.index t (0 : Fin 2) * 5000 + 1 * p.val = t.val * 5000 + p.val; omega
    | ⟨1, _⟩ => show win1_6.index t (1 : Fin 2) * 256 + 1 * q.val = q.val; omega
  have h0 : ∀ k : Fin 256, ((cfg1.win 0).blk t).view.emb (ix2 p k) = ix2 (⟨t.val * 5000 + p.val, hrow⟩ : Fin 100000) k := fun k => by
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  have h1 : ∀ k : Fin 256, ((cfg1.win 1).blk t).view.emb (ix2 p k) = ix2 (⟨t.val * 5000 + p.val, hrow⟩ : Fin 100000) k := fun k => by
    funext a; apply Fin.ext
    match a with
    | ⟨0, _⟩ => show win1_1.index t (0 : Fin 2) * 5000 + 1 * p.val = t.val * 5000 + p.val; omega
    | ⟨1, _⟩ => show win1_1.index t (1 : Fin 2) * 256 + 1 * k.val = k.val; omega
  have h2 : ∀ y : S256x256.Idx, ((cfg1.win 2).blk t).view.emb y = y := fun y => by
    funext a; apply Fin.ext
    match a with
    | ⟨0, _⟩ => show win1_2.index t (0 : Fin 2) * 256 + 1 * (y 0).val = (y 0).val; omega
    | ⟨1, _⟩ => show win1_2.index t (1 : Fin 2) * 256 + 1 * (y 1).val = (y 1).val; omega
  have h3 : ∀ y : S1x256.Idx, ((cfg1.win 3).blk t).view.emb y = y := fun y => by
    funext a; apply Fin.ext
    match a with
    | ⟨0, _⟩ => show win1_3.index t (0 : Fin 2) * 1 + 1 * (y 0).val = (y 0).val; omega
    | ⟨1, _⟩ => show win1_3.index t (1 : Fin 2) * 256 + 1 * (y 1).val = (y 1).val; omega
  have h4 : ∀ y : S256x256.Idx, ((cfg1.win 4).blk t).view.emb y = y := fun y => by
    funext a; apply Fin.ext
    match a with
    | ⟨0, _⟩ => show win1_4.index t (0 : Fin 2) * 256 + 1 * (y 0).val = (y 0).val; omega
    | ⟨1, _⟩ => show win1_4.index t (1 : Fin 2) * 256 + 1 * (y 1).val = (y 1).val; omega
  have h5 : ∀ y : S1x256.Idx, ((cfg1.win 5).blk t).view.emb y = y := fun y => by
    funext a; apply Fin.ext
    match a with
    | ⟨0, _⟩ => show win1_5.index t (0 : Fin 2) * 1 + 1 * (y 0).val = (y 0).val; omega
    | ⟨1, _⟩ => show win1_5.index t (1 : Fin 2) * 256 + 1 * (y 1).val = (y 1).val; omega
  rw [h6]
  refine Eq.trans ?_ (Cert.Gin.mlpCore_apply _ _ _ _ _ _ _ _).symm
  unfold Cert.Gin.mlpAt
  simp only [h0, h1, h2, h3, h4, h5]

/-- An entry of the output array lies in point t's block iff each coordinate lies in the block's range on its axis. -/
theorem mem_blk (t : Fin cfg1.N) (i : S100000x256.Idx) :
    i ∈ ((cfg1.win 6).blk t).view.set ↔ ∀ a : Fin 2, win1_6.index t a * S5000x256.size a ≤ (i a).val
      ∧ (i a).val < win1_6.index t a * S5000x256.size a + S5000x256.size a := by
  show i ∈ ((View.whole main_v37).slice (win1_6.rect t)).set ↔ _
  rw [View.set_slice_whole, Rect.mem_set_unit]
  exact Iff.rfl

/-- Every entry of the output array lies in some point's block: row r in block r / 5000. -/
theorem cover (i : S100000x256.Idx) :
    ∃ t : Fin cfg1.N, (cfg1.win 6).flush t = true ∧ i ∈ ((cfg1.win 6).blk t).view.set := by
  have hi0 : (i 0).val < 100000 := (i 0).isLt
  have hi1 : (i 1).val < 256 := (i 1).isLt
  have hlt : (i 0).val / 5000 < cfg1.N := lt_of_lt_of_eq (by omega : (i 0).val / 5000 < 20) N_1.symm
  obtain ⟨-, -, -, -, -, -, -, -, -, -, -, -, e60, e61⟩ := idx_facts ⟨(i 0).val / 5000, hlt⟩
  refine ⟨⟨(i 0).val / 5000, hlt⟩, flush1_6 _, ?_⟩
  rw [mem_blk]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, hlt⟩ (1 : Fin 2) * 256 ≤ (i 1).val
      ∧ (i 1).val < win1_6.index ⟨(i 0).val / 5000, hlt⟩ (1 : Fin 2) * 256 + 256
    omega

/-- The region's output array after the region: the layer function of its input arrays. -/
theorem value (c : Dev nD) : (dat1 V c).arrAt 6 cfg1.N = layerOut V c :=
  (dat1 V c).arrAt_eq_of_cover 6 (layerOut V c) (fun t _ => flushed_eq V c t) cover

end Cert.GinKernel.Layer1

end
-- ==== Proof.KLayer2.lean ====
/-
  The third layer's kernel region, as one array.

  The region walks twenty grid points; at point t it fetches rows 5000·t … 5000·t + 4999 of the node features and of
  the aggregated neighbour features, the whole of both weight matrices and both one-row biases, and writes back the
  same rows of the output.  What it stores at row p, column q of its block is the layer function of the fetched
  blocks at (p, q); a row of a block is row 5000·t + p of its array, so the stored block is the block of one array:
  the layer function of the region's input arrays.  The twenty blocks tile the output (row r lies in block r / 5000),
  hence the output array ends as that function.
-/
import proofs.«166179_j72456098284043_1_alg».proof.Proof.Gen.KernelIdeal.Frame
import proofs.«166179_j72456098284043_1_alg».proof.Proof.LibDense
import Idealize.ShloMosaic.Lib.Pipeline.Value

set_option maxRecDepth 16384

noncomputable section

namespace Cert.GinKernel.Layer2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores at row p, column q of its block: the layer function of the loaded blocks. -/
theorem stored_apply (a0 a1 : Vec Ideal S5000x256 .f32) (a2 : Vec Ideal S256x256 .f32) (a3 : Vec Ideal S1x256 .f32)
    (a4 : Vec Ideal S256x256 .f32) (a5 : Vec Ideal S1x256 .f32) (p : Fin 5000) (q : Fin 256) :
    k2_pay1 (F := Ideal) a0 a1 a2 a3 a4 a5 (ix2 p q)
      = Cert.Gin.mlpAt a0 a1 a2 (fun j => a3 (ix2 (0 : Fin 1) j)) a4 (fun j => a5 (ix2 (0 : Fin 1) j)) p q := by
  unfold k2_pay1
  simp only [shapeCast_self]
  exact Cert.Gin.dense_payload _ _ _ _ a0 a1 a2 a3 a4 a5 p q

/-- The layer function of the region's input arrays as the region finds them. -/
abbrev layerOut (c : Dev nD) : S100000x256.Idx → EReal :=
  Cert.Gin.mlpCore (V c main_v37) (V c main_v55) (V c main_v39) (fun j => V c main_v56 (ix2 (0 : Fin 1) j)) (V c main_v43)
    (fun j => V c main_v57 (ix2 (0 : Fin 1) j))

/-- The windows' block indices at every grid point: the row-tiled windows sit at block (t, 0), the others at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 1600000 in
/-- What point t writes back is block t of the layer function of the input arrays. -/
theorem flushed_eq (c : Dev nD) (t : Fin cfg2.N) :
    (dat2 V c).flushed 6 t = ((cfg2.win 6).blk t).view.read (Elt Ideal) (layerOut V c) := by
  show (cfg2.win 6).cut (grid2.coords t) ((dat2 V c).after 6 t) = _
  rw [after2_6]
  unfold out2_6
  rw [View.canon_unit_zero origin]
  simp only [View.ld_unit_zero (S := S5000x256) origin, View.ld_unit_zero (S := S256x256) origin,
    View.ld_unit_zero (S := S256x256) origin, View.ld_unit_zero (S := S1x256) origin]
  obtain ⟨e00, e01, e10, e11, e20, e21, e30, e31, e40, e41, e50, e51, e60, e61⟩ := idx_facts t
  have ht : t.val < 20 := lt_of_lt_of_eq t.isLt N_2
  funext j
  show k2_pay1 (F := Ideal) (fun y : S5000x256.Idx => V c main_v37 (((cfg2.win 0).blk t).view.emb y))
      (fun y : S5000x256.Idx => V c main_v55 (((cfg2.win 1).blk t).view.emb y))
      (fun y : S256x256.Idx => V c main_v39 (((cfg2.win 2).blk t).view.emb y))
      (fun y : S1x256.Idx => V c main_v56 (((cfg2.win 3).blk t).view.emb y))
      (fun y : S256x256.Idx => V c main_v43 (((cfg2.win 4).blk t).view.emb y))
      (fun y : S1x256.Idx => V c main_v57 (((cfg2.win 5).blk t).view.emb y)) j
    = layerOut V c (((cfg2.win 6).blk t).view.emb j)
  obtain ⟨p, q, rfl⟩ : ∃ (p : Fin 5000) (q : Fin 256), j = ix2 p q := ⟨j 0, j 1, eq_ix2 j⟩
  rw [stored_apply]
  have hp : p.val < 5000 := p.isLt
  have hrow : t.val * 5000 + p.val < 100000 := by omega
  have h6 : ((cfg2.win 6).blk t).view.emb (ix2 p q) = ix2 (⟨t.val * 5000 + p.val, hrow⟩ : Fin 100000) q := by
    funext a; apply Fin.ext
    match a with
    | ⟨0, _⟩ => show win2_6.index t (0 : Fin 2) * 5000 + 1 * p.val = t.val * 5000 + p.val; omega
    | ⟨1, _⟩ => show win2_6.index t (1 : Fin 2) * 256 + 1 * q.val = q.val; omega
  have h0 : ∀ k : Fin 256, ((cfg2.win 0).blk t).view.emb (ix2 p k) = ix2 (⟨t.val * 5000 + p.val, hrow⟩ : Fin 100000) k := fun k => by
    funext a; apply Fin.ext
    match a with
    | ⟨0, _⟩ => show win2_0.index t (0 : Fin 2) * 5000 + 1 * p.val = t.val * 5000 + p.val; omega
    | ⟨1, _⟩ => show win2_0.index t (1 : Fin 2) * 256 + 1 * k.val = k.val; omega
  have h1 : ∀ k : Fin 256, ((cfg2.win 1).blk t).view.emb (ix2 p k) = ix2 (⟨t.val * 5000 + p.val, hrow⟩ : Fin 100000) k := fun k => by
    funext a; apply Fin.ext
    match a with
    | ⟨0, _⟩ => show win2_1.index t (0 : Fin 2) * 5000 + 1 * p.val = t.val * 5000 + p.val; omega
    | ⟨1, _⟩ => show win2_1.index t (1 : Fin 2) * 256 + 1 * k.val = k.val; omega
  have h2 : ∀ y : S256x256.Idx, ((cfg2.win 2).blk t).view.emb y = y := fun y => by
    funext a; apply Fin.ext
    match a with
    | ⟨0, _⟩ => show win2_2.index t (0 : Fin 2) * 256 + 1 * (y 0).val = (y 0).val; omega
    | ⟨1, _⟩ => show win2_2.index t (1 : Fin 2) * 256 + 1 * (y 1).val = (y 1).val; omega
  have h3 : ∀ y : S1x256.Idx, ((cfg2.win 3).blk t).view.emb y = y := fun y => by
    funext a; apply Fin.ext
    match a with
    | ⟨0, _⟩ => show win2_3.index t (0 : Fin 2) * 1 + 1 * (y 0).val = (y 0).val; omega
    | ⟨1, _⟩ => show win2_3.index t (1 : Fin 2) * 256 + 1 * (y 1).val = (y 1).val; omega
  have h4 : ∀ y : S256x256.Idx, ((cfg2.win 4).blk t).view.emb y = y := fun y => by
    funext a; apply Fin.ext
    match a with
    | ⟨0, _⟩ => show win2_4.index t (0 : Fin 2) * 256 + 1 * (y 0).val = (y 0).val; omega
    | ⟨1, _⟩ => show win2_4.index t (1 : Fin 2) * 256 + 1 * (y 1).val = (y 1).val; omega
  have h5 : ∀ y : S1x256.Idx, ((cfg2.win 5).blk t).view.emb y = y := fun y => by
    funext a; apply Fin.ext
    match a with
    | ⟨0, _⟩ => show win2_5.index t (0 : Fin 2) * 1 + 1 * (y 0).val = (y 0).val; omega
    | ⟨1, _⟩ => show win2_5.index t (1 : Fin 2) * 256 + 1 * (y 1).val = (y 1).val; omega
  rw [h6]
  refine Eq.trans ?_ (Cert.Gin.mlpCore_apply _ _ _ _ _ _ _ _).symm
  unfold Cert.Gin.mlpAt
  simp only [h0, h1, h2, h3, h4, h5]

/-- An entry of the output array lies in point t's block iff each coordinate lies in the block's range on its axis. -/
theorem mem_blk (t : Fin cfg2.N) (i : S100000x256.Idx) :
    i ∈ ((cfg2.win 6).blk t).view.set ↔ ∀ a : Fin 2, win2_6.index t a * S5000x256.size a ≤ (i a).val
      ∧ (i a).val < win2_6.index t a * S5000x256.size a + S5000x256.size a := by
  show i ∈ ((View.whole main_v58).slice (win2_6.rect t)).set ↔ _
  rw [View.set_slice_whole, Rect.mem_set_unit]
  exact Iff.rfl

/-- Every entry of the output array lies in some point's block: row r in block r / 5000. -/
theorem cover (i : S100000x256.Idx) :
    ∃ t : Fin cfg2.N, (cfg2.win 6).flush t = true ∧ i ∈ ((cfg2.win 6).blk t).view.set := by
  have hi0 : (i 0).val < 100000 := (i 0).isLt
  have hi1 : (i 1).val < 256 := (i 1).isLt
  have hlt : (i 0).val / 5000 < cfg2.N := lt_of_lt_of_eq (by omega : (i 0).val / 5000 < 20) N_2.symm
  obtain ⟨-, -, -, -, -, -, -, -, -, -, -, -, e60, e61⟩ := idx_facts ⟨(i 0).val / 5000, hlt⟩
  refine ⟨⟨(i 0).val / 5000, hlt⟩, flush2_6 _, ?_⟩
  rw [mem_blk]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win2_6.index ⟨(i 0).val / 5000, hlt⟩ (1 : Fin 2) * 256 ≤ (i 1).val
      ∧ (i 1).val < win2_6.index ⟨(i 0).val / 5000, hlt⟩ (1 : Fin 2) * 256 + 256
    omega

/-- The region's output array after the region: the layer function of its input arrays. -/
theorem value (c : Dev nD) : (dat2 V c).arrAt 6 cfg2.N = layerOut V c :=
  (dat2 V c).arrAt_eq_of_cover 6 (layerOut V c) (fun t _ => flushed_eq V c t) cover

end Cert.GinKernel.Layer2

end
-- ==== Proof.KLayer3.lean ====
/-
  The fourth layer's kernel region, as one array.

  The region walks twenty grid points; at point t it fetches rows 5000·t … 5000·t + 4999 of the node features and of
  the aggregated neighbour features, the whole of both weight matrices and both one-row biases, and writes back the
  same rows of the output.  What it stores at row p, column q of its block is the layer function of the fetched
  blocks at (p, q); a row of a block is row 5000·t + p of its array, so the stored block is the block of one array:
  the layer function of the region's input arrays.  The twenty blocks tile the output (row r lies in block r / 5000),
  hence the output array ends as that function.
-/
import proofs.«166179_j72456098284043_1_alg».proof.Proof.Gen.KernelIdeal.Frame
import proofs.«166179_j72456098284043_1_alg».proof.Proof.LibDense
import Idealize.ShloMosaic.Lib.Pipeline.Value

set_option maxRecDepth 16384

noncomputable section

namespace Cert.GinKernel.Layer3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores at row p, column q of its block: the layer function of the loaded blocks. -/
theorem stored_apply (a0 a1 : Vec Ideal S5000x256 .f32) (a2 : Vec Ideal S256x256 .f32) (a3 : Vec Ideal S1x256 .f32)
    (a4 : Vec Ideal S256x256 .f32) (a5 : Vec Ideal S1x256 .f32) (p : Fin 5000) (q : Fin 256) :
    k3_pay1 (F := Ideal) a0 a1 a2 a3 a4 a5 (ix2 p q)
      = Cert.Gin.mlpAt a0 a1 a2 (fun j => a3 (ix2 (0 : Fin 1) j)) a4 (fun j => a5 (ix2 (0 : Fin 1) j)) p q := by
  unfold k3_pay1
  simp only [shapeCast_self]
  exact Cert.Gin.dense_payload _ _ _ _ a0 a1 a2 a3 a4 a5 p q

/-- The layer function of the region's input arrays as the region finds them. -/
abbrev layerOut (c : Dev nD) : S100000x256.Idx → EReal :=
  Cert.Gin.mlpCore (V c main_v58) (V c main_v76) (V c main_v60) (fun j => V c main_v77 (ix2 (0 : Fin 1) j)) (V c main_v64)
    (fun j => V c main_v78 (ix2 (0 : Fin 1) j))

/-- The windows' block indices at every grid point: the row-tiled windows sit at block (t, 0), the others at (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 1600000 in
/-- What point t writes back is block t of the layer function of the input arrays. -/
theorem flushed_eq (c : Dev nD) (t : Fin cfg3.N) :
    (dat3 V c).flushed 6 t = ((cfg3.win 6).blk t).view.read (Elt Ideal) (layerOut V c) := by
  show (cfg3.win 6).cut (grid3.coords t) ((dat3 V c).after 6 t) = _
  rw [after3_6]
  unfold out3_6
  rw [View.canon_unit_zero origin]
  simp only [View.ld_unit_zero (S := S5000x256) origin, View.ld_unit_zero (S := S256x256) origin,
    View.ld_unit_zero (S := S256x256) origin, View.ld_unit_zero (S := S1x256) origin]
  obtain ⟨e00, e01, e10, e11, e20, e21, e30, e31, e40, e41, e50, e51, e60, e61⟩ := idx_facts t
  have ht : t.val < 20 := lt_of_lt_of_eq t.isLt N_3
  funext j
  show k3_pay1 (F := Ideal) (fun y : S5000x256.Idx => V c main_v58 (((cfg3.win 0).blk t).view.emb y))
      (fun y : S5000x256.Idx => V c main_v76 (((cfg3.win 1).blk t).view.emb y))
      (fun y : S256x256.Idx => V c main_v60 (((cfg3.win 2).blk t).view.emb y))
      (fun y : S1x256.Idx => V c main_v77 (((cfg3.win 3).blk t).view.emb y))
      (fun y : S256x256.Idx => V c main_v64 (((cfg3.win 4).blk t).view.emb y))
      (fun y : S1x256.Idx => V c main_v78 (((cfg3.win 5).blk t).view.emb y)) j
    = layerOut V c (((cfg3.win 6).blk t).view.emb j)
  obtain ⟨p, q, rfl⟩ : ∃ (p : Fin 5000) (q : Fin 256), j = ix2 p q := ⟨j 0, j 1, eq_ix2 j⟩
  rw [stored_apply]
  have hp : p.val < 5000 := p.isLt
  have hrow : t.val * 5000 + p.val < 100000 := by omega
  have h6 : ((cfg3.win 6).blk t).view.emb (ix2 p q) = ix2 (⟨t.val * 5000 + p.val, hrow⟩ : Fin 100000) q := by
    funext a; apply Fin.ext
    match a with
    | ⟨0, _⟩ => show win3_6.index t (0 : Fin 2) * 5000 + 1 * p.val = t.val * 5000 + p.val; omega
    | ⟨1, _⟩ => show win3_6.index t (1 : Fin 2) * 256 + 1 * q.val = q.val; omega
  have h0 : ∀ k : Fin 256, ((cfg3.win 0).blk t).view.emb (ix2 p k) = ix2 (⟨t.val * 5000 + p.val, hrow⟩ : Fin 100000) k := fun k => by
    funext a; apply Fin.ext
    match a with
    | ⟨0, _⟩ => show win3_0.index t (0 : Fin 2) * 5000 + 1 * p.val = t.val * 5000 + p.val; omega
    | ⟨1, _⟩ => show win3_0.index t (1 : Fin 2) * 256 + 1 * k.val = k.val; omega
  have h1 : ∀ k : Fin 256, ((cfg3.win 1).blk t).view.emb (ix2 p k) = ix2 (⟨t.val * 5000 + p.val, hrow⟩ : Fin 100000) k := fun k => by
    funext a; apply Fin.ext
    match a with
    | ⟨0, _⟩ => show win3_1.index t (0 : Fin 2) * 5000 + 1 * p.val = t.val * 5000 + p.val; omega
    | ⟨1, _⟩ => show win3_1.index t (1 : Fin 2) * 256 + 1 * k.val = k.val; omega
  have h2 : ∀ y : S256x256.Idx, ((cfg3.win 2).blk t).view.emb y = y := fun y => by
    funext a; apply Fin.ext
    match a with
    | ⟨0, _⟩ => show win3_2.index t (0 : Fin 2) * 256 + 1 * (y 0).val = (y 0).val; omega
    | ⟨1, _⟩ => show win3_2.index t (1 : Fin 2) * 256 + 1 * (y 1).val = (y 1).val; omega
  have h3 : ∀ y : S1x256.Idx, ((cfg3.win 3).blk t).view.emb y = y := fun y => by
    funext a; apply Fin.ext
    match a with
    | ⟨0, _⟩ => show win3_3.index t (0 : Fin 2) * 1 + 1 * (y 0).val = (y 0).val; omega
    | ⟨1, _⟩ => show win3_3.index t (1 : Fin 2) * 256 + 1 * (y 1).val = (y 1).val; omega
  have h4 : ∀ y : S256x256.Idx, ((cfg3.win 4).blk t).view.emb y = y := fun y => by
    funext a; apply Fin.ext
    match a with
    | ⟨0, _⟩ => show win3_4.index t (0 : Fin 2) * 256 + 1 * (y 0).val = (y 0).val; omega
    | ⟨1, _⟩ => show win3_4.index t (1 : Fin 2) * 256 + 1 * (y 1).val = (y 1).val; omega
  have h5 : ∀ y : S1x256.Idx, ((cfg3.win 5).blk t).view.emb y = y := fun y => by
    funext a; apply Fin.ext
    match a with
    | ⟨0, _⟩ => show win3_5.index t (0 : Fin 2) * 1 + 1 * (y 0).val = (y 0).val; omega
    | ⟨1, _⟩ => show win3_5.index t (1 : Fin 2) * 256 + 1 * (y 1).val = (y 1).val; omega
  rw [h6]
  refine Eq.trans ?_ (Cert.Gin.mlpCore_apply _ _ _ _ _ _ _ _).symm
  unfold Cert.Gin.mlpAt
  simp only [h0, h1, h2, h3, h4, h5]

/-- An entry of the output array lies in point t's block iff each coordinate lies in the block's range on its axis. -/
theorem mem_blk (t : Fin cfg3.N) (i : S100000x256.Idx) :
    i ∈ ((cfg3.win 6).blk t).view.set ↔ ∀ a : Fin 2, win3_6.index t a * S5000x256.size a ≤ (i a).val
      ∧ (i a).val < win3_6.index t a * S5000x256.size a + S5000x256.size a := by
  show i ∈ ((View.whole main_v79).slice (win3_6.rect t)).set ↔ _
  rw [View.set_slice_whole, Rect.mem_set_unit]
  exact Iff.rfl

/-- Every entry of the output array lies in some point's block: row r in block r / 5000. -/
theorem cover (i : S100000x256.Idx) :
    ∃ t : Fin cfg3.N, (cfg3.win 6).flush t = true ∧ i ∈ ((cfg3.win 6).blk t).view.set := by
  have hi0 : (i 0).val < 100000 := (i 0).isLt
  have hi1 : (i 1).val < 256 := (i 1).isLt
  have hlt : (i 0).val / 5000 < cfg3.N := lt_of_lt_of_eq (by omega : (i 0).val / 5000 < 20) N_3.symm
  obtain ⟨-, -, -, -, -, -, -, -, -, -, -, -, e60, e61⟩ := idx_facts ⟨(i 0).val / 5000, hlt⟩
  refine ⟨⟨(i 0).val / 5000, hlt⟩, flush3_6 _, ?_⟩
  rw [mem_blk]
  intro a
  match a with
  | ⟨0, _⟩ =>
    show win3_6.index ⟨(i 0).val / 5000, hlt⟩ (0 : Fin 2) * 5000 ≤ (i 0).val
      ∧ (i 0).val < win3_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win3_6.index ⟨(i 0).val / 5000, hlt⟩ (1 : Fin 2) * 256 ≤ (i 1).val
      ∧ (i 1).val < win3_6.index ⟨(i 0).val / 5000, hlt⟩ (1 : Fin 2) * 256 + 256
    omega

/-- The region's output array after the region: the layer function of its input arrays. -/
theorem value (c : Dev nD) : (dat3 V c).arrAt 6 cfg3.N = layerOut V c :=
  (dat3 V c).arrAt_eq_of_cover 6 (layerOut V c) (fun t _ => flushed_eq V c t) cover

end Cert.GinKernel.Layer3

end
-- ==== Proof.KLayer4.lean ====
/-
  The fifth layer's kernel region, as one array.

  The region walks twenty grid points; at point t it fetches rows 5000·t … 5000·t + 4999 of the node features and of
  the aggregated neighbour features, the whole of both weight matrices and both one-row biases, and writes back the
  same rows of the output.  What it stores at row p, column q of its block is the layer function of the fetched
  blocks at (p, q); a row of a block is row 5000·t + p of its array, so the stored block is the block of one array:
  the layer function of the region's input arrays.  The twenty blocks tile the output (row r lies in block r / 5000),
  hence the output array ends as that function.
-/
import proofs.«166179_j72456098284043_1_alg».proof.Proof.Gen.KernelIdeal.Frame
import proofs.«166179_j72456098284043_1_alg».proof.Proof.LibDense
import Idealize.ShloMosaic.Lib.Pipeline.Value

set_option maxRecDepth 16384

noncomputable section

namespace Cert.GinKernel.Layer4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores at row p, column q of its block: the layer function of the loaded blocks. -/
theorem stored_apply (a0 a1 : Vec Ideal S5000x256 .f32) (a2 : Vec Ideal S256x256 .f32) (a3 : Vec Ideal S1x256 .f32)
    (a4 : Vec Ideal S256x256 .f32) (a5 : Vec Ideal S1x256 .f32) (p : Fin 5000) (q : Fin 256) :
    k4_pay1 (F := Ideal) a0 a1 a2 a3 a4 a5 (ix2 p q)
      = Cert.Gin.mlpAt a0 a1 a2 (fun j => a3 (ix2 (0 : Fin 1) j)) a4 (fun j => a5 (ix2 (0 : Fin 1) j)) p q := by
  unfold k4_pay1
  simp only [shapeCast_self]
  exact Cert.Gin.dense_payload _ _ _ _ a0 a1 a2 a3 a4 a5 p q

/-- The layer function of the region's input arrays as the region finds them. -/
abbrev layerOut (c : Dev nD) : S100000x256.Idx → EReal :=
  Cert.Gin.mlpCore (V c main_v79) (V c main_v97) (V c main_v81) (fun j => V c main_v98 (ix2 (0 : Fin 1) j)) (V c main_v85)
    (fun j => V c main_v99 (ix2 (0 : Fin 1) j))

/-- The windows' block indices at every grid point: the row-tiled windows sit at block (t, 0), the others at (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

set_option maxHeartbeats 1600000 in
/-- What point t writes back is block t of the layer function of the input arrays. -/
theorem flushed_eq (c : Dev nD) (t : Fin cfg4.N) :
    (dat4 V c).flushed 6 t = ((cfg4.win 6).blk t).view.read (Elt Ideal) (layerOut V c) := by
  show (cfg4.win 6).cut (grid4.coords t) ((dat4 V c).after 6 t) = _
  rw [after4_6]
  unfold out4_6
  rw [View.canon_unit_zero origin]
  simp only [View.ld_unit_zero (S := S5000x256) origin, View.ld_unit_zero (S := S256x256) origin,
    View.ld_unit_zero (S := S256x256) origin, View.ld_unit_zero (S := S1x256) origin]
  obtain ⟨e00, e01, e10, e11, e20, e21, e30, e31, e40, e41, e50, e51, e60, e61⟩ := idx_facts t
  have ht : t.val < 20 := lt_of_lt_of_eq t.isLt N_4
  funext j
  show k4_pay1 (F := Ideal) (fun y : S5000x256.Idx => V c main_v79 (((cfg4.win 0).blk t).view.emb y))
      (fun y : S5000x256.Idx => V c main_v97 (((cfg4.win 1).blk t).view.emb y))
      (fun y : S256x256.Idx => V c main_v81 (((cfg4.win 2).blk t).view.emb y))
      (fun y : S1x256.Idx => V c main_v98 (((cfg4.win 3).blk t).view.emb y))
      (fun y : S256x256.Idx => V c main_v85 (((cfg4.win 4).blk t).view.emb y))
      (fun y : S1x256.Idx => V c main_v99 (((cfg4.win 5).blk t).view.emb y)) j
    = layerOut V c (((cfg4.win 6).blk t).view.emb j)
  obtain ⟨p, q, rfl⟩ : ∃ (p : Fin 5000) (q : Fin 256), j = ix2 p q := ⟨j 0, j 1, eq_ix2 j⟩
  rw [stored_apply]
  have hp : p.val < 5000 := p.isLt
  have hrow : t.val * 5000 + p.val < 100000 := by omega
  have h6 : ((cfg4.win 6).blk t).view.emb (ix2 p q) = ix2 (⟨t.val * 5000 + p.val, hrow⟩ : Fin 100000) q := by
    funext a; apply Fin.ext
    match a with
    | ⟨0, _⟩ => show win4_6.index t (0 : Fin 2) * 5000 + 1 * p.val = t.val * 5000 + p.val; omega
    | ⟨1, _⟩ => show win4_6.index t (1 : Fin 2) * 256 + 1 * q.val = q.val; omega
  have h0 : ∀ k : Fin 256, ((cfg4.win 0).blk t).view.emb (ix2 p k) = ix2 (⟨t.val * 5000 + p.val, hrow⟩ : Fin 100000) k := fun k => by
    funext a; apply Fin.ext
    match a with
    | ⟨0, _⟩ => show win4_0.index t (0 : Fin 2) * 5000 + 1 * p.val = t.val * 5000 + p.val; omega
    | ⟨1, _⟩ => show win4_0.index t (1 : Fin 2) * 256 + 1 * k.val = k.val; omega
  have h1 : ∀ k : Fin 256, ((cfg4.win 1).blk t).view.emb (ix2 p k) = ix2 (⟨t.val * 5000 + p.val, hrow⟩ : Fin 100000) k := fun k => by
    funext a; apply Fin.ext
    match a with
    | ⟨0, _⟩ => show win4_1.index t (0 : Fin 2) * 5000 + 1 * p.val = t.val * 5000 + p.val; omega
    | ⟨1, _⟩ => show win4_1.index t (1 : Fin 2) * 256 + 1 * k.val = k.val; omega
  have h2 : ∀ y : S256x256.Idx, ((cfg4.win 2).blk t).view.emb y = y := fun y => by
    funext a; apply Fin.ext
    match a with
    | ⟨0, _⟩ => show win4_2.index t (0 : Fin 2) * 256 + 1 * (y 0).val = (y 0).val; omega
    | ⟨1, _⟩ => show win4_2.index t (1 : Fin 2) * 256 + 1 * (y 1).val = (y 1).val; omega
  have h3 : ∀ y : S1x256.Idx, ((cfg4.win 3).blk t).view.emb y = y := fun y => by
    funext a; apply Fin.ext
    match a with
    | ⟨0, _⟩ => show win4_3.index t (0 : Fin 2) * 1 + 1 * (y 0).val = (y 0).val; omega
    | ⟨1, _⟩ => show win4_3.index t (1 : Fin 2) * 256 + 1 * (y 1).val = (y 1).val; omega
  have h4 : ∀ y : S256x256.Idx, ((cfg4.win 4).blk t).view.emb y = y := fun y => by
    funext a; apply Fin.ext
    match a with
    | ⟨0, _⟩ => show win4_4.index t (0 : Fin 2) * 256 + 1 * (y 0).val = (y 0).val; omega
    | ⟨1, _⟩ => show win4_4.index t (1 : Fin 2) * 256 + 1 * (y 1).val = (y 1).val; omega
  have h5 : ∀ y : S1x256.Idx, ((cfg4.win 5).blk t).view.emb y = y := fun y => by
    funext a; apply Fin.ext
    match a with
    | ⟨0, _⟩ => show win4_5.index t (0 : Fin 2) * 1 + 1 * (y 0).val = (y 0).val; omega
    | ⟨1, _⟩ => show win4_5.index t (1 : Fin 2) * 256 + 1 * (y 1).val = (y 1).val; omega
  rw [h6]
  refine Eq.trans ?_ (Cert.Gin.mlpCore_apply _ _ _ _ _ _ _ _).symm
  unfold Cert.Gin.mlpAt
  simp only [h0, h1, h2, h3, h4, h5]

/-- An entry of the output array lies in point t's block iff each coordinate lies in the block's range on its axis. -/
theorem mem_blk (t : Fin cfg4.N) (i : S100000x256.Idx) :
    i ∈ ((cfg4.win 6).blk t).view.set ↔ ∀ a : Fin 2, win4_6.index t a * S5000x256.size a ≤ (i a).val
      ∧ (i a).val < win4_6.index t a * S5000x256.size a + S5000x256.size a := by
  show i ∈ ((View.whole main_v100).slice (win4_6.rect t)).set ↔ _
  rw [View.set_slice_whole, Rect.mem_set_unit]
  exact Iff.rfl

/-- Every entry of the output array lies in some point's block: row r in block r / 5000. -/
theorem cover (i : S100000x256.Idx) :
    ∃ t : Fin cfg4.N, (cfg4.win 6).flush t = true ∧ i ∈ ((cfg4.win 6).blk t).view.set := by
  have hi0 : (i 0).val < 100000 := (i 0).isLt
  have hi1 : (i 1).val < 256 := (i 1).isLt
  have hlt : (i 0).val / 5000 < cfg4.N := lt_of_lt_of_eq (by omega : (i 0).val / 5000 < 20) N_4.symm
  obtain ⟨-, -, -, -, -, -, -, -, -, -, -, -, e60, e61⟩ := idx_facts ⟨(i 0).val / 5000, hlt⟩
  refine ⟨⟨(i 0).val / 5000, hlt⟩, flush4_6 _, ?_⟩
  rw [mem_blk]
  intro a
  match a with
  | ⟨0, _⟩ =>
    show win4_6.index ⟨(i 0).val / 5000, hlt⟩ (0 : Fin 2) * 5000 ≤ (i 0).val
      ∧ (i 0).val < win4_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win4_6.index ⟨(i 0).val / 5000, hlt⟩ (1 : Fin 2) * 256 ≤ (i 1).val
      ∧ (i 1).val < win4_6.index ⟨(i 0).val / 5000, hlt⟩ (1 : Fin 2) * 256 + 256
    omega

/-- The region's output array after the region: the layer function of its input arrays. -/
theorem value (c : Dev nD) : (dat4 V c).arrAt 6 cfg4.N = layerOut V c :=
  (dat4 V c).arrAt_eq_of_cover 6 (layerOut V c) (fun t _ => flushed_eq V c t) cover

end Cert.GinKernel.Layer4

end
-- ==== Proof.KHead.lean ====
/-
  The head's kernel region, as one array.

  The region has a single grid point: it fetches the whole of the pooled features, of both weight matrices and of both
  one-row biases, and writes back the whole output.  What it stores at row p, column q is the head function of the
  fetched arrays at (p, q); every block is its whole array, so the output array ends as the head function of the
  region's input arrays.
-/
import proofs.«166179_j72456098284043_1_alg».proof.Proof.Gen.KernelIdeal.Frame
import proofs.«166179_j72456098284043_1_alg».proof.Proof.LibDense
import Idealize.ShloMosaic.Lib.Pipeline.Value

set_option maxRecDepth 16384

noncomputable section

namespace Cert.GinKernel.Head

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores at row p, column q: the head function of the loaded arrays. -/
theorem stored_apply (a0 : Vec Ideal S5000x256 .f32) (a1 : Vec Ideal S256x256 .f32) (a2 : Vec Ideal S1x256 .f32)
    (a3 : Vec Ideal S256x1 .f32) (a4 : Vec Ideal S1x1 .f32) (p : Fin 5000) (q : Fin 1) :
    k5_pay1 (F := Ideal) a0 a1 a2 a3 a4 (ix2 p q)
      = Cert.Gin.headAt a0 a1 (fun j => a2 (ix2 (0 : Fin 1) j)) a3 (fun j => a4 (ix2 (0 : Fin 1) j)) p q := by
  unfold k5_pay1
  simp only [shapeCast_self]
  exact Cert.Gin.head_payload _ _ _ _ _ a0 a1 a2 a3 a4 p q

/-- The head function of the region's input arrays as the region finds them. -/
abbrev headOut (c : Dev nD) : S5000x1.Idx → EReal :=
  Cert.Gin.headCore (V c main_v112) (V c main_arg11) (fun j => V c main_v113 (ix2 (0 : Fin 1) j)) (V c main_arg13)
    (fun j => V c main_v114 (ix2 (0 : Fin 1) j))

/-- Every window sits at block (0, 0) at the one grid point. -/
theorem idx_facts : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- What the one point writes back is the head function of the input arrays, read through the whole-array block. -/
theorem flushed_eq (c : Dev nD) (t : Fin cfg5.N) :
    (dat5 V c).flushed 5 t = ((cfg5.win 5).blk t).view.read (Elt Ideal) (headOut V c) := by
  show (cfg5.win 5).cut (grid5.coords t) ((dat5 V c).after 5 t) = _
  rw [after5_5]
  unfold out5_5
  rw [View.canon_unit_zero origin]
  simp only [View.ld_unit_zero (S := S5000x256) origin, View.ld_unit_zero (S := S256x256) origin,
    View.ld_unit_zero (S := S1x256) origin, View.ld_unit_zero (S := S256x1) origin, View.ld_unit_zero (S := S1x1) origin]
  obtain ⟨e00, e01, e10, e11, e20, e21, e30, e31, e40, e41, e50, e51⟩ := idx_facts t
  funext j
  show k5_pay1 (F := Ideal) (fun y : S5000x256.Idx => V c main_v112 (((cfg5.win 0).blk t).view.emb y))
      (fun y : S256x256.Idx => V c main_arg11 (((cfg5.win 1).blk t).view.emb y))
      (fun y : S1x256.Idx => V c main_v113 (((cfg5.win 2).blk t).view.emb y))
      (fun y : S256x1.Idx => V c main_arg13 (((cfg5.win 3).blk t).view.emb y))
      (fun y : S1x1.Idx => V c main_v114 (((cfg5.win 4).blk t).view.emb y)) j
    = headOut V c (((cfg5.win 5).blk t).view.emb j)
  obtain ⟨p, q, rfl⟩ : ∃ (p : Fin 5000) (q : Fin 1), j = ix2 p q := ⟨j 0, j 1, eq_ix2 j⟩
  rw [stored_apply]
  have h5 : ((cfg5.win 5).blk t).view.emb (ix2 p q) = ix2 p q := by
    funext a; apply Fin.ext
    match a with
    | ⟨0, _⟩ => show win5_5.index t (0 : Fin 2) * 5000 + 1 * p.val = p.val; omega
    | ⟨1, _⟩ => show win5_5.index t (1 : Fin 2) * 1 + 1 * q.val = q.val; omega
  have h0 : ∀ y : S5000x256.Idx, ((cfg5.win 0).blk t).view.emb y = y := fun y => by
    funext a; apply Fin.ext
    match a with
    | ⟨0, _⟩ => show win5_0.index t (0 : Fin 2) * 5000 + 1 * (y 0).val = (y 0).val; omega
    | ⟨1, _⟩ => show win5_0.index t (1 : Fin 2) * 256 + 1 * (y 1).val = (y 1).val; omega
  have h1 : ∀ y : S256x256.Idx, ((cfg5.win 1).blk t).view.emb y = y := fun y => by
    funext a; apply Fin.ext
    match a with
    | ⟨0, _⟩ => show win5_1.index t (0 : Fin 2) * 256 + 1 * (y 0).val = (y 0).val; omega
    | ⟨1, _⟩ => show win5_1.index t (1 : Fin 2) * 256 + 1 * (y 1).val = (y 1).val; omega
  have h2 : ∀ y : S1x256.Idx, ((cfg5.win 2).blk t).view.emb y = y := fun y => by
    funext a; apply Fin.ext
    match a with
    | ⟨0, _⟩ => show win5_2.index t (0 : Fin 2) * 1 + 1 * (y 0).val = (y 0).val; omega
    | ⟨1, _⟩ => show win5_2.index t (1 : Fin 2) * 256 + 1 * (y 1).val = (y 1).val; omega
  have h3 : ∀ y : S256x1.Idx, ((cfg5.win 3).blk t).view.emb y = y := fun y => by
    funext a; apply Fin.ext
    match a with
    | ⟨0, _⟩ => show win5_3.index t (0 : Fin 2) * 256 + 1 * (y 0).val = (y 0).val; omega
    | ⟨1, _⟩ => show win5_3.index t (1 : Fin 2) * 1 + 1 * (y 1).val = (y 1).val; omega
  have h4 : ∀ y : S1x1.Idx, ((cfg5.win 4).blk t).view.emb y = y := fun y => by
    funext a; apply Fin.ext
    match a with
    | ⟨0, _⟩ => show win5_4.index t (0 : Fin 2) * 1 + 1 * (y 0).val = (y 0).val; omega
    | ⟨1, _⟩ => show win5_4.index t (1 : Fin 2) * 1 + 1 * (y 1).val = (y 1).val; omega
  rw [h5]
  refine Eq.trans ?_ (Cert.Gin.headCore_apply _ _ _ _ _ _ _).symm
  unfold Cert.Gin.headAt
  simp only [h0, h1, h2, h3, h4]

/-- An entry of the output array lies in the point's block iff each coordinate lies in the block's range on its axis. -/
theorem mem_blk (t : Fin cfg5.N) (i : S5000x1.Idx) :
    i ∈ ((cfg5.win 5).blk t).view.set ↔ ∀ a : Fin 2, win5_5.index t a * S5000x1.size a ≤ (i a).val
      ∧ (i a).val < win5_5.index t a * S5000x1.size a + S5000x1.size a := by
  show i ∈ ((View.whole main_v115).slice (win5_5.rect t)).set ↔ _
  rw [View.set_slice_whole, Rect.mem_set_unit]
  exact Iff.rfl

/-- Every entry of the output array lies in the one point's block. -/
theorem cover (i : S5000x1.Idx) :
    ∃ t : Fin cfg5.N, (cfg5.win 5).flush t = true ∧ i ∈ ((cfg5.win 5).blk t).view.set := by
  have hi0 : (i 0).val < 5000 := (i 0).isLt
  have hi1 : (i 1).val < 1 := (i 1).isLt
  obtain ⟨-, -, -, -, -, -, -, -, -, -, e50, e51⟩ := idx_facts t5_0
  refine ⟨t5_0, flush5_5 _, ?_⟩
  rw [mem_blk]
  intro a
  match a with
  | ⟨0, _⟩ =>
    show win5_5.index t5_0 (0 : Fin 2) * 5000 ≤ (i 0).val ∧ (i 0).val < win5_5.index t5_0 (0 : Fin 2) * 5000 + 5000
    omega
  | ⟨1, _⟩ =>
    show win5_5.index t5_0 (1 : Fin 2) * 1 ≤ (i 1).val ∧ (i 1).val < win5_5.index t5_0 (1 : Fin 2) * 1 + 1
    omega

/-- The region's output array after the region: the head function of its input arrays. -/
theorem value (c : Dev nD) : (dat5 V c).arrAt 5 cfg5.N = headOut V c :=
  (dat5 V c).arrAt_eq_of_cover 5 (headOut V c) (fun t _ => flushed_eq V c t) cover

end Cert.GinKernel.Head

end
-- ==== Proof.RLayers.lean ====
/-
  The reference program's dense blocks.

  Each of the five layers ends in the same eleven host operations: add the summed neighbour features to the node
  features, multiply by the first weight matrix, add the first bias (a vector made a one-row matrix and spread over the
  rows), clamp below at zero, multiply by the second weight matrix, add the second bias, clamp again.  Read entry by
  entry that is the layer function of the specification, applied to the previous layer's output, the aggregated
  neighbour features (left as they are: a gather followed by a scatter-add), and the layer's weights and biases.  The
  last seven operations of the program are the head applied to the pooled features.
-/
import proofs.«166179_j72456098284043_1_alg».proof.Proof.Gen.ReferenceIdeal.Read
import proofs.«166179_j72456098284043_1_alg».proof.Proof.LibDense

noncomputable section

namespace Cert.GinRef

open Cert.ReferenceIdeal Cert.ReferenceIdeal.Read Idealize.ShloMosaic Idealize.ShloMosaic.ValueIdx

/-- The first layer: node features of width 11, weights and biases the program's own arguments. -/
theorem layer0 (x0 : (⟨S100000x11, .f32⟩ : BufTy).Contents (Elt Ideal)) (x1 : (⟨S2x400000, .i32⟩ : BufTy).Contents (Elt Ideal)) (x3 : (⟨S11x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    val_main_v24 (F := Ideal) x0 x1 x3 x4 x5 x6
      = Cert.Gin.mlpCore x0 (val_main_v13 (F := Ideal) x0 x1) x3 (fun j => x4 (ix1 j)) x5 (fun j => x6 (ix1 j)) := by
  funext i
  obtain ⟨r, c, rfl⟩ : ∃ (r : Fin 100000) (c : Fin 256), i = ix2 r c := ⟨i 0, i 1, eq_ix2 i⟩
  rw [Cert.Gin.mlpCore_apply]
  unfold val_main_v24 val_main_v23 val_main_v22 val_main_v21 val_main_v20 val_main_v19 val_main_v18 val_main_v17 val_main_v16
    val_main_v15 val_main_v14 val_main_call0_v0 val_main_call0_cst val_main_call1_v0 val_main_call1_cst
  generalize val_main_v13 (F := Ideal) x0 x1 = g
  exact Cert.Gin.dense_host _ _ _ _ _ x0 g x3 x4 x5 x6 r c

/-- Layer 2: the previous layer's output of width 256, weights and biases the first slices of the stacked arguments. -/
theorem layer1 (x0 : (⟨S100000x11, .f32⟩ : BufTy).Contents (Elt Ideal)) (x1 : (⟨S2x400000, .i32⟩ : BufTy).Contents (Elt Ideal)) (x3 : (⟨S11x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) (x8 : (⟨S4x256, .f32⟩ : BufTy).Contents (Elt Ideal)) (x9 : (⟨S4x256x256, .f32⟩ : BufTy).Contents (Elt Ideal)) (x10 : (⟨S4x256, .f32⟩ : BufTy).Contents (Elt Ideal)) :
    val_main_v53 (F := Ideal) x0 x1 x3 x4 x5 x6 x7 x8 x9 x10
      = Cert.Gin.mlpCore (val_main_v24 (F := Ideal) x0 x1 x3 x4 x5 x6) (val_main_v42 (F := Ideal) x0 x1 x3 x4 x5 x6)
          (val_main_v26 (F := Ideal) x7) (fun j => val_main_v28 (F := Ideal) x8 (ix1 j))
          (val_main_v30 (F := Ideal) x9) (fun j => val_main_v32 (F := Ideal) x10 (ix1 j)) := by
  funext i
  obtain ⟨r, c, rfl⟩ : ∃ (r : Fin 100000) (c : Fin 256), i = ix2 r c := ⟨i 0, i 1, eq_ix2 i⟩
  rw [Cert.Gin.mlpCore_apply]
  unfold val_main_v53 val_main_v52 val_main_v51 val_main_v50 val_main_v49 val_main_v48 val_main_v47 val_main_v46 val_main_v45 val_main_v44 val_main_v43
    val_main_call2_v0 val_main_call2_cst val_main_call3_v0 val_main_call3_cst
  generalize val_main_v24 (F := Ideal) x0 x1 x3 x4 x5 x6 = h
  generalize val_main_v42 (F := Ideal) x0 x1 x3 x4 x5 x6 = g
  exact Cert.Gin.dense_host _ _ _ _ _ h g (val_main_v26 (F := Ideal) x7) (val_main_v28 (F := Ideal) x8)
    (val_main_v30 (F := Ideal) x9) (val_main_v32 (F := Ideal) x10) r c

/-- Layer 3: the previous layer's output of width 256, weights and biases the second slices of the stacked arguments. -/
theorem layer2 (x0 : (⟨S100000x11, .f32⟩ : BufTy).Contents (Elt Ideal)) (x1 : (⟨S2x400000, .i32⟩ : BufTy).Contents (Elt Ideal)) (x3 : (⟨S11x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) (x8 : (⟨S4x256, .f32⟩ : BufTy).Contents (Elt Ideal)) (x9 : (⟨S4x256x256, .f32⟩ : BufTy).Contents (Elt Ideal)) (x10 : (⟨S4x256, .f32⟩ : BufTy).Contents (Elt Ideal)) :
    val_main_v82 (F := Ideal) x0 x1 x3 x4 x5 x6 x7 x8 x9 x10
      = Cert.Gin.mlpCore (val_main_v53 (F := Ideal) x0 x1 x3 x4 x5 x6 x7 x8 x9 x10) (val_main_v71 (F := Ideal) x0 x1 x3 x4 x5 x6 x7 x8 x9 x10)
          (val_main_v55 (F := Ideal) x7) (fun j => val_main_v57 (F := Ideal) x8 (ix1 j))
          (val_main_v59 (F := Ideal) x9) (fun j => val_main_v61 (F := Ideal) x10 (ix1 j)) := by
  funext i
  obtain ⟨r, c, rfl⟩ : ∃ (r : Fin 100000) (c : Fin 256), i = ix2 r c := ⟨i 0, i 1, eq_ix2 i⟩
  rw [Cert.Gin.mlpCore_apply]
  unfold val_main_v82 val_main_v81 val_main_v80 val_main_v79 val_main_v78 val_main_v77 val_main_v76 val_main_v75 val_main_v74 val_main_v73 val_main_v72
    val_main_call4_v0 val_main_call4_cst val_main_call5_v0 val_main_call5_cst
  generalize val_main_v53 (F := Ideal) x0 x1 x3 x4 x5 x6 x7 x8 x9 x10 = h
  generalize val_main_v71 (F := Ideal) x0 x1 x3 x4 x5 x6 x7 x8 x9 x10 = g
  exact Cert.Gin.dense_host _ _ _ _ _ h g (val_main_v55 (F := Ideal) x7) (val_main_v57 (F := Ideal) x8)
    (val_main_v59 (F := Ideal) x9) (val_main_v61 (F := Ideal) x10) r c

/-- Layer 4: the previous layer's output of width 256, weights and biases the third slices of the stacked arguments. -/
theorem layer3 (x0 : (⟨S100000x11, .f32⟩ : BufTy).Contents (Elt Ideal)) (x1 : (⟨S2x400000, .i32⟩ : BufTy).Contents (Elt Ideal)) (x3 : (⟨S11x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) (x8 : (⟨S4x256, .f32⟩ : BufTy).Contents (Elt Ideal)) (x9 : (⟨S4x256x256, .f32⟩ : BufTy).Contents (Elt Ideal)) (x10 : (⟨S4x256, .f32⟩ : BufTy).Contents (Elt Ideal)) :
    val_main_v111 (F := Ideal) x0 x1 x3 x4 x5 x6 x7 x8 x9 x10
      = Cert.Gin.mlpCore (val_main_v82 (F := Ideal) x0 x1 x3 x4 x5 x6 x7 x8 x9 x10) (val_main_v100 (F := Ideal) x0 x1 x3 x4 x5 x6 x7 x8 x9 x10)
          (val_main_v84 (F := Ideal) x7) (fun j => val_main_v86 (F := Ideal) x8 (ix1 j))
          (val_main_v88 (F := Ideal) x9) (fun j => val_main_v90 (F := Ideal) x10 (ix1 j)) := by
  funext i
  obtain ⟨r, c, rfl⟩ : ∃ (r : Fin 100000) (c : Fin 256), i = ix2 r c := ⟨i 0, i 1, eq_ix2 i⟩
  rw [Cert.Gin.mlpCore_apply]
  unfold val_main_v111 val_main_v110 val_main_v109 val_main_v108 val_main_v107 val_main_v106 val_main_v105 val_main_v104 val_main_v103 val_main_v102 val_main_v101
    val_main_call6_v0 val_main_call6_cst val_main_call7_v0 val_main_call7_cst
  generalize val_main_v82 (F := Ideal) x0 x1 x3 x4 x5 x6 x7 x8 x9 x10 = h
  generalize val_main_v100 (F := Ideal) x0 x1 x3 x4 x5 x6 x7 x8 x9 x10 = g
  exact Cert.Gin.dense_host _ _ _ _ _ h g (val_main_v84 (F := Ideal) x7) (val_main_v86 (F := Ideal) x8)
    (val_main_v88 (F := Ideal) x9) (val_main_v90 (F := Ideal) x10) r c

/-- Layer 5: the previous layer's output of width 256, weights and biases the fourth slices of the stacked arguments. -/
theorem layer4 (x0 : (⟨S100000x11, .f32⟩ : BufTy).Contents (Elt Ideal)) (x1 : (⟨S2x400000, .i32⟩ : BufTy).Contents (Elt Ideal)) (x3 : (⟨S11x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) (x8 : (⟨S4x256, .f32⟩ : BufTy).Contents (Elt Ideal)) (x9 : (⟨S4x256x256, .f32⟩ : BufTy).Contents (Elt Ideal)) (x10 : (⟨S4x256, .f32⟩ : BufTy).Contents (Elt Ideal)) :
    val_main_v140 (F := Ideal) x0 x1 x3 x4 x5 x6 x7 x8 x9 x10
      = Cert.Gin.mlpCore (val_main_v111 (F := Ideal) x0 x1 x3 x4 x5 x6 x7 x8 x9 x10) (val_main_v129 (F := Ideal) x0 x1 x3 x4 x5 x6 x7 x8 x9 x10)
          (val_main_v113 (F := Ideal) x7) (fun j => val_main_v115 (F := Ideal) x8 (ix1 j))
          (val_main_v117 (F := Ideal) x9) (fun j => val_main_v119 (F := Ideal) x10 (ix1 j)) := by
  funext i
  obtain ⟨r, c, rfl⟩ : ∃ (r : Fin 100000) (c : Fin 256), i = ix2 r c := ⟨i 0, i 1, eq_ix2 i⟩
  rw [Cert.Gin.mlpCore_apply]
  unfold val_main_v140 val_main_v139 val_main_v138 val_main_v137 val_main_v136 val_main_v135 val_main_v134 val_main_v133 val_main_v132 val_main_v131 val_main_v130
    val_main_call8_v0 val_main_call8_cst val_main_call9_v0 val_main_call9_cst
  generalize val_main_v111 (F := Ideal) x0 x1 x3 x4 x5 x6 x7 x8 x9 x10 = h
  generalize val_main_v129 (F := Ideal) x0 x1 x3 x4 x5 x6 x7 x8 x9 x10 = g
  exact Cert.Gin.dense_host _ _ _ _ _ h g (val_main_v113 (F := Ideal) x7) (val_main_v115 (F := Ideal) x8)
    (val_main_v117 (F := Ideal) x9) (val_main_v119 (F := Ideal) x10) r c

/-- The result: the head applied to the pooled features. -/
theorem head (x0 : (⟨S100000x11, .f32⟩ : BufTy).Contents (Elt Ideal)) (x1 : (⟨S2x400000, .i32⟩ : BufTy).Contents (Elt Ideal)) (x2 : (⟨S100000, .i32⟩ : BufTy).Contents (Elt Ideal)) (x3 : (⟨S11x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S4x256x256, .f32⟩ : BufTy).Contents (Elt Ideal)) (x8 : (⟨S4x256, .f32⟩ : BufTy).Contents (Elt Ideal)) (x9 : (⟨S4x256x256, .f32⟩ : BufTy).Contents (Elt Ideal)) (x10 : (⟨S4x256, .f32⟩ : BufTy).Contents (Elt Ideal)) (x11 : (⟨S256x256, .f32⟩ : BufTy).Contents (Elt Ideal)) (x12 : (⟨S256, .f32⟩ : BufTy).Contents (Elt Ideal)) (x13 : (⟨S256x1, .f32⟩ : BufTy).Contents (Elt Ideal)) (x14 : (⟨S1, .f32⟩ : BufTy).Contents (Elt Ideal)) :
    val_main_v160 (F := Ideal) x0 x1 x2 x3 x4 x5 x6 x7 x8 x9 x10 x11 x12 x13 x14
      = Cert.Gin.headCore (val_main_v152 (F := Ideal) x0 x1 x2 x3 x4 x5 x6 x7 x8 x9 x10) x11 (fun j => x12 (ix1 j)) x13 (fun j => x14 (ix1 j)) := by
  funext i
  obtain ⟨r, c, rfl⟩ : ∃ (r : Fin 5000) (c : Fin 1), i = ix2 r c := ⟨i 0, i 1, eq_ix2 i⟩
  rw [Cert.Gin.headCore_apply]
  unfold val_main_v160 val_main_v159 val_main_v158 val_main_v157 val_main_v156 val_main_v155 val_main_v154 val_main_v153
  generalize val_main_v152 (F := Ideal) x0 x1 x2 x3 x4 x5 x6 x7 x8 x9 x10 = p
  exact Cert.Gin.head_host _ _ _ _ _ _ p x11 x12 x13 x14 r c

end Cert.GinRef

end
-- ==== Proof.KChain.lean ====
/-
  The kernel program's result, traced through its twelve segments.

  Between two kernel regions the program runs the same host operations as the reference: it slices the layer's
  weights out of the stacked arguments, wraps negative edge sources, gathers the source rows of the current node
  features and scatter-adds them at the edge targets.  A region then applies the layer's dense part to the node
  features and the aggregated neighbour features.  Going boundary by boundary: the buffers a later segment still
  reads (the two edge-endpoint arrays and the later arguments) pass through every stretch and every region untouched;
  what a stretch computes is, operation for operation, the reference's stage of the same name applied to the same
  inputs; and a region's output array is the layer function of its input arrays, which is the reference's layer
  stage.  So after the k-th region the node-feature buffer holds the reference's k-th layer, after the last stretch
  the pooled features are the reference's, and the head region leaves the reference's result.
-/
import proofs.«166179_j72456098284043_1_alg».proof.Proof.Gen.KernelIdeal.Frame
import proofs.«166179_j72456098284043_1_alg».proof.Proof.Gen.ReferenceIdeal.Read
import proofs.«166179_j72456098284043_1_alg».proof.Proof.KLayer0
import proofs.«166179_j72456098284043_1_alg».proof.Proof.KLayer1
import proofs.«166179_j72456098284043_1_alg».proof.Proof.KLayer2
import proofs.«166179_j72456098284043_1_alg».proof.Proof.KLayer3
import proofs.«166179_j72456098284043_1_alg».proof.Proof.KLayer4
import proofs.«166179_j72456098284043_1_alg».proof.Proof.KHead
import proofs.«166179_j72456098284043_1_alg».proof.Proof.RLayers
import Idealize.ShloMosaic.Lib.StableHlo.Run

set_option maxRecDepth 16384

noncomputable section

namespace Cert.GinKernel.Chain

open Cert.KernelIdeal Cert.KernelIdeal.Gen Idealize.ShloMosaic Idealize.ShloMosaic.TcCoe Idealize.ShloMosaic.ValueIdx
open Idealize.SL.Sem Idealize.ShloMosaic.StableHlo
open Cert.ReferenceIdeal.Read

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)
local notation "A14" => m ((c : Thread nD τ).loc main_arg14)

set_option quotPrecheck true

/-- A buffer none of a stretch's operations writes holds after the stretch what it held before. -/
macro "carry_through " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The first stretch: edge endpoints, the first aggregation, the first layer's biases as rows -/

/-- The arguments a later segment reads still hold their launch contents after the first stretch. -/
theorem atLaunch : ∀ b ∈ ([main_arg0, main_arg2, main_arg3, main_arg5, main_arg7, main_arg8, main_arg9, main_arg10, main_arg11,
      main_arg12, main_arg13, main_arg14] : List (Ref sig .tc)),
    W1 m ρ c (Proc.devRef .tc b) = m ((c : Thread nD τ).loc b) := by
  intro b hb
  simp only [List.mem_cons, List.mem_singleton, List.not_mem_nil, or_false] at hb
  rcases hb with rfl | rfl | rfl | rfl | rfl | rfl | rfl | rfl | rfl | rfl | rfl | rfl <;>
    exact Eq.trans (b := W0 m ρ c (Proc.devRef .tc _)) (by carry_through hostOps0) rfl

theorem src1 : W1 m ρ c (Proc.devRef .tc main_v1) = val_main_v1 (F := Ideal) A1 := by
  show StableHlo.after hostOps0 (W0 m ρ c) (Proc.devRef .tc main_v1) = _
  after_results
  rfl

theorem dst1 : W1 m ρ c (Proc.devRef .tc main_v3) = val_main_v3 (F := Ideal) A1 := by
  show StableHlo.after hostOps0 (W0 m ρ c) (Proc.devRef .tc main_v3) = _
  after_results
  rfl

theorem agg0 : W1 m ρ c (Proc.devRef .tc main_v13) = val_main_v13 (F := Ideal) A0 A1 := by
  show StableHlo.after hostOps0 (W0 m ρ c) (Proc.devRef .tc main_v13) = _
  after_results
  rfl

theorem ba0 : W1 m ρ c (Proc.devRef .tc main_v14) = shapeCast S1x256 A4 shapeCasts_S256_S1x256 := by
  show StableHlo.after hostOps0 (W0 m ρ c) (Proc.devRef .tc main_v14) = _
  after_results
  rfl

theorem bb0 : W1 m ρ c (Proc.devRef .tc main_v15) = shapeCast S1x256 A6 shapeCasts_S256_S1x256 := by
  show StableHlo.after hostOps0 (W0 m ρ c) (Proc.devRef .tc main_v15) = _
  after_results
  rfl

/-! ## The buffers later segments read pass every boundary untouched -/

/-- The two edge-endpoint arrays and the arguments from the third on. -/
def kept : List (Ref sig .tc) :=
  [main_v1, main_v3, main_arg2, main_arg7, main_arg8, main_arg9, main_arg10, main_arg11, main_arg12, main_arg13, main_arg14]

theorem kept2 : ∀ b ∈ kept, W2 m ρ c (Proc.devRef .tc b) = W1 m ρ c (Proc.devRef .tc b) := by
  intro b hb
  simp only [kept, List.mem_cons, List.mem_singleton, List.not_mem_nil, or_false] at hb
  rcases hb with rfl | rfl | rfl | rfl | rfl | rfl | rfl | rfl | rfl | rfl | rfl <;> exact W2_of_ne m ρ c _ (by decide)

theorem kept4 : ∀ b ∈ kept, W4 m ρ c (Proc.devRef .tc b) = W1 m ρ c (Proc.devRef .tc b) := by
  intro b hb
  have h := kept2 m ρ c b hb
  simp only [kept, List.mem_cons, List.mem_singleton, List.not_mem_nil, or_false] at hb
  rcases hb with rfl | rfl | rfl | rfl | rfl | rfl | rfl | rfl | rfl | rfl | rfl <;>
    exact ((W4_of_ne m ρ c _ (by decide)).trans (by carry_through hostOps1)).trans h

theorem kept6 : ∀ b ∈ kept, W6 m ρ c (Proc.devRef .tc b) = W1 m ρ c (Proc.devRef .tc b) := by
  intro b hb
  have h := kept4 m ρ c b hb
  simp only [kept, List.mem_cons, List.mem_singleton, List.not_mem_nil, or_false] at hb
  rcases hb with rfl | rfl | rfl | rfl | rfl | rfl | rfl | rfl | rfl | rfl | rfl <;>
    exact ((W6_of_ne m ρ c _ (by decide)).trans (by carry_through hostOps2)).trans h

theorem kept8 : ∀ b ∈ kept, W8 m ρ c (Proc.devRef .tc b) = W1 m ρ c (Proc.devRef .tc b) := by
  intro b hb
  have h := kept6 m ρ c b hb
  simp only [kept, List.mem_cons, List.mem_singleton, List.not_mem_nil, or_false] at hb
  rcases hb with rfl | rfl | rfl | rfl | rfl | rfl | rfl | rfl | rfl | rfl | rfl <;>
    exact ((W8_of_ne m ρ c _ (by decide)).trans (by carry_through hostOps3)).trans h

theorem kept10 : ∀ b ∈ kept, W10 m ρ c (Proc.devRef .tc b) = W1 m ρ c (Proc.devRef .tc b) := by
  intro b hb
  have h := kept8 m ρ c b hb
  simp only [kept, List.mem_cons, List.mem_singleton, List.not_mem_nil, or_false] at hb
  rcases hb with rfl | rfl | rfl | rfl | rfl | rfl | rfl | rfl | rfl | rfl | rfl <;>
    exact ((W10_of_ne m ρ c _ (by decide)).trans (by carry_through hostOps4)).trans h

/-! ## The first layer -/

theorem out0 : W2 m ρ c (Proc.devRef .tc main_v16) = val_main_v24 (F := Ideal) A0 A1 A3 A4 A5 A6 := by
  refine (W2_arr m ρ c 6).trans ?_
  rw [Layer0.value]
  show Cert.Gin.mlpCore (W1 m ρ c (Proc.devRef .tc main_arg0)) (W1 m ρ c (Proc.devRef .tc main_v13))
      (W1 m ρ c (Proc.devRef .tc main_arg3)) (fun j => W1 m ρ c (Proc.devRef .tc main_v14) (ix2 (0 : Fin 1) j))
      (W1 m ρ c (Proc.devRef .tc main_arg5)) (fun j => W1 m ρ c (Proc.devRef .tc main_v15) (ix2 (0 : Fin 1) j)) = _
  rw [atLaunch m ρ c main_arg0 (by decide), agg0, atLaunch m ρ c main_arg3 (by decide), ba0,
    atLaunch m ρ c main_arg5 (by decide), bb0, Cert.GinRef.layer0]
  simp only [Cert.Sage.ReadAt.row_reshape_apply]

/-! ## Layer 2 -/

theorem in1 : W3 m ρ c (Proc.devRef .tc main_v16) = val_main_v24 (F := Ideal) A0 A1 A3 A4 A5 A6 :=
  Eq.trans (by carry_through hostOps1) (out0 m ρ c)

set_option maxHeartbeats 1600000 in
theorem agg1 : W3 m ρ c (Proc.devRef .tc main_v34) = val_main_v42 (F := Ideal) A0 A1 A3 A4 A5 A6 := by
  show StableHlo.after hostOps1 (W2 m ρ c) (Proc.devRef .tc main_v34) = _
  after_results
  rw [out0 m ρ c, kept2 m ρ c main_v1 (by decide), kept2 m ρ c main_v3 (by decide), src1, dst1]
  rfl

theorem wa1 : W3 m ρ c (Proc.devRef .tc main_v18) = val_main_v26 (F := Ideal) A7 := by
  show StableHlo.after hostOps1 (W2 m ρ c) (Proc.devRef .tc main_v18) = _
  after_results
  rw [kept2 m ρ c main_arg7 (by decide), atLaunch m ρ c main_arg7 (by decide)]
  rfl

theorem ba1 : W3 m ρ c (Proc.devRef .tc main_v35) = shapeCast S1x256 (val_main_v28 (F := Ideal) A8) shapeCasts_S256_S1x256 := by
  show StableHlo.after hostOps1 (W2 m ρ c) (Proc.devRef .tc main_v35) = _
  after_results
  rw [kept2 m ρ c main_arg8 (by decide), atLaunch m ρ c main_arg8 (by decide)]
  rfl

theorem wb1 : W3 m ρ c (Proc.devRef .tc main_v22) = val_main_v30 (F := Ideal) A9 := by
  show StableHlo.after hostOps1 (W2 m ρ c) (Proc.devRef .tc main_v22) = _
  after_results
  rw [kept2 m ρ c main_arg9 (by decide), atLaunch m ρ c main_arg9 (by decide)]
  rfl

theorem bb1 : W3 m ρ c (Proc.devRef .tc main_v36) = shapeCast S1x256 (val_main_v32 (F := Ideal) A10) shapeCasts_S256_S1x256 := by
  show StableHlo.after hostOps1 (W2 m ρ c) (Proc.devRef .tc main_v36) = _
  after_results
  rw [kept2 m ρ c main_arg10 (by decide), atLaunch m ρ c main_arg10 (by decide)]
  rfl

theorem out1 : W4 m ρ c (Proc.devRef .tc main_v37) = val_main_v53 (F := Ideal) A0 A1 A3 A4 A5 A6 A7 A8 A9 A10 := by
  refine (W4_arr m ρ c 6).trans ?_
  rw [Layer1.value]
  show Cert.Gin.mlpCore (W3 m ρ c (Proc.devRef .tc main_v16)) (W3 m ρ c (Proc.devRef .tc main_v34))
      (W3 m ρ c (Proc.devRef .tc main_v18)) (fun j => W3 m ρ c (Proc.devRef .tc main_v35) (ix2 (0 : Fin 1) j))
      (W3 m ρ c (Proc.devRef .tc main_v22)) (fun j => W3 m ρ c (Proc.devRef .tc main_v36) (ix2 (0 : Fin 1) j)) = _
  rw [in1, agg1, wa1, ba1, wb1, bb1, Cert.GinRef.layer1]
  simp only [Cert.Sage.ReadAt.row_reshape_apply]

/-! ## Layer 3 -/

theorem in2 : W5 m ρ c (Proc.devRef .tc main_v37) = val_main_v53 (F := Ideal) A0 A1 A3 A4 A5 A6 A7 A8 A9 A10 :=
  Eq.trans (by carry_through hostOps2) (out1 m ρ c)

set_option maxHeartbeats 1600000 in
theorem agg2 : W5 m ρ c (Proc.devRef .tc main_v55) = val_main_v71 (F := Ideal) A0 A1 A3 A4 A5 A6 A7 A8 A9 A10 := by
  show StableHlo.after hostOps2 (W4 m ρ c) (Proc.devRef .tc main_v55) = _
  after_results
  rw [out1 m ρ c, kept4 m ρ c main_v1 (by decide), kept4 m ρ c main_v3 (by decide), src1, dst1]
  rfl

theorem wa2 : W5 m ρ c (Proc.devRef .tc main_v39) = val_main_v55 (F := Ideal) A7 := by
  show StableHlo.after hostOps2 (W4 m ρ c) (Proc.devRef .tc main_v39) = _
  after_results
  rw [kept4 m ρ c main_arg7 (by decide), atLaunch m ρ c main_arg7 (by decide)]
  rfl

theorem ba2 : W5 m ρ c (Proc.devRef .tc main_v56) = shapeCast S1x256 (val_main_v57 (F := Ideal) A8) shapeCasts_S256_S1x256 := by
  show StableHlo.after hostOps2 (W4 m ρ c) (Proc.devRef .tc main_v56) = _
  after_results
  rw [kept4 m ρ c main_arg8 (by decide), atLaunch m ρ c main_arg8 (by decide)]
  rfl

theorem wb2 : W5 m ρ c (Proc.devRef .tc main_v43) = val_main_v59 (F := Ideal) A9 := by
  show StableHlo.after hostOps2 (W4 m ρ c) (Proc.devRef .tc main_v43) = _
  after_results
  rw [kept4 m ρ c main_arg9 (by decide), atLaunch m ρ c main_arg9 (by decide)]
  rfl

theorem bb2 : W5 m ρ c (Proc.devRef .tc main_v57) = shapeCast S1x256 (val_main_v61 (F := Ideal) A10) shapeCasts_S256_S1x256 := by
  show StableHlo.after hostOps2 (W4 m ρ c) (Proc.devRef .tc main_v57) = _
  after_results
  rw [kept4 m ρ c main_arg10 (by decide), atLaunch m ρ c main_arg10 (by decide)]
  rfl

theorem out2 : W6 m ρ c (Proc.devRef .tc main_v58) = val_main_v82 (F := Ideal) A0 A1 A3 A4 A5 A6 A7 A8 A9 A10 := by
  refine (W6_arr m ρ c 6).trans ?_
  rw [Layer2.value]
  show Cert.Gin.mlpCore (W5 m ρ c (Proc.devRef .tc main_v37)) (W5 m ρ c (Proc.devRef .tc main_v55))
      (W5 m ρ c (Proc.devRef .tc main_v39)) (fun j => W5 m ρ c (Proc.devRef .tc main_v56) (ix2 (0 : Fin 1) j))
      (W5 m ρ c (Proc.devRef .tc main_v43)) (fun j => W5 m ρ c (Proc.devRef .tc main_v57) (ix2 (0 : Fin 1) j)) = _
  rw [in2, agg2, wa2, ba2, wb2, bb2, Cert.GinRef.layer2]
  simp only [Cert.Sage.ReadAt.row_reshape_apply]

/-! ## Layer 4 -/

theorem in3 : W7 m ρ c (Proc.devRef .tc main_v58) = val_main_v82 (F := Ideal) A0 A1 A3 A4 A5 A6 A7 A8 A9 A10 :=
  Eq.trans (by carry_through hostOps3) (out2 m ρ c)

set_option maxHeartbeats 1600000 in
theorem agg3 : W7 m ρ c (Proc.devRef .tc main_v76) = val_main_v100 (F := Ideal) A0 A1 A3 A4 A5 A6 A7 A8 A9 A10 := by
  show StableHlo.after hostOps3 (W6 m ρ c) (Proc.devRef .tc main_v76) = _
  after_results
  rw [out2 m ρ c, kept6 m ρ c main_v1 (by decide), kept6 m ρ c main_v3 (by decide), src1, dst1]
  rfl

theorem wa3 : W7 m ρ c (Proc.devRef .tc main_v60) = val_main_v84 (F := Ideal) A7 := by
  show StableHlo.after hostOps3 (W6 m ρ c) (Proc.devRef .tc main_v60) = _
  after_results
  rw [kept6 m ρ c main_arg7 (by decide), atLaunch m ρ c main_arg7 (by decide)]
  rfl

theorem ba3 : W7 m ρ c (Proc.devRef .tc main_v77) = shapeCast S1x256 (val_main_v86 (F := Ideal) A8) shapeCasts_S256_S1x256 := by
  show StableHlo.after hostOps3 (W6 m ρ c) (Proc.devRef .tc main_v77) = _
  after_results
  rw [kept6 m ρ c main_arg8 (by decide), atLaunch m ρ c main_arg8 (by decide)]
  rfl

theorem wb3 : W7 m ρ c (Proc.devRef .tc main_v64) = val_main_v88 (F := Ideal) A9 := by
  show StableHlo.after hostOps3 (W6 m ρ c) (Proc.devRef .tc main_v64) = _
  after_results
  rw [kept6 m ρ c main_arg9 (by decide), atLaunch m ρ c main_arg9 (by decide)]
  rfl

theorem bb3 : W7 m ρ c (Proc.devRef .tc main_v78) = shapeCast S1x256 (val_main_v90 (F := Ideal) A10) shapeCasts_S256_S1x256 := by
  show StableHlo.after hostOps3 (W6 m ρ c) (Proc.devRef .tc main_v78) = _
  after_results
  rw [kept6 m ρ c main_arg10 (by decide), atLaunch m ρ c main_arg10 (by decide)]
  rfl

theorem out3 : W8 m ρ c (Proc.devRef .tc main_v79) = val_main_v111 (F := Ideal) A0 A1 A3 A4 A5 A6 A7 A8 A9 A10 := by
  refine (W8_arr m ρ c 6).trans ?_
  rw [Layer3.value]
  show Cert.Gin.mlpCore (W7 m ρ c (Proc.devRef .tc main_v58)) (W7 m ρ c (Proc.devRef .tc main_v76))
      (W7 m ρ c (Proc.devRef .tc main_v60)) (fun j => W7 m ρ c (Proc.devRef .tc main_v77) (ix2 (0 : Fin 1) j))
      (W7 m ρ c (Proc.devRef .tc main_v64)) (fun j => W7 m ρ c (Proc.devRef .tc main_v78) (ix2 (0 : Fin 1) j)) = _
  rw [in3, agg3, wa3, ba3, wb3, bb3, Cert.GinRef.layer3]
  simp only [Cert.Sage.ReadAt.row_reshape_apply]

/-! ## Layer 5 -/

theorem in4 : W9 m ρ c (Proc.devRef .tc main_v79) = val_main_v111 (F := Ideal) A0 A1 A3 A4 A5 A6 A7 A8 A9 A10 :=
  Eq.trans (by carry_through hostOps4) (out3 m ρ c)

set_option maxHeartbeats 1600000 in
theorem agg4 : W9 m ρ c (Proc.devRef .tc main_v97) = val_main_v129 (F := Ideal) A0 A1 A3 A4 A5 A6 A7 A8 A9 A10 := by
  show StableHlo.after hostOps4 (W8 m ρ c) (Proc.devRef .tc main_v97) = _
  after_results
  rw [out3 m ρ c, kept8 m ρ c main_v1 (by decide), kept8 m ρ c main_v3 (by decide), src1, dst1]
  rfl

theorem wa4 : W9 m ρ c (Proc.devRef .tc main_v81) = val_main_v113 (F := Ideal) A7 := by
  show StableHlo.after hostOps4 (W8 m ρ c) (Proc.devRef .tc main_v81) = _
  after_results
  rw [kept8 m ρ c main_arg7 (by decide), atLaunch m ρ c main_arg7 (by decide)]
  rfl

theorem ba4 : W9 m ρ c (Proc.devRef .tc main_v98) = shapeCast S1x256 (val_main_v115 (F := Ideal) A8) shapeCasts_S256_S1x256 := by
  show StableHlo.after hostOps4 (W8 m ρ c) (Proc.devRef .tc main_v98) = _
  after_results
  rw [kept8 m ρ c main_arg8 (by decide), atLaunch m ρ c main_arg8 (by decide)]
  rfl

theorem wb4 : W9 m ρ c (Proc.devRef .tc main_v85) = val_main_v117 (F := Ideal) A9 := by
  show StableHlo.after hostOps4 (W8 m ρ c) (Proc.devRef .tc main_v85) = _
  after_results
  rw [kept8 m ρ c main_arg9 (by decide), atLaunch m ρ c main_arg9 (by decide)]
  rfl

theorem bb4 : W9 m ρ c (Proc.devRef .tc main_v99) = shapeCast S1x256 (val_main_v119 (F := Ideal) A10) shapeCasts_S256_S1x256 := by
  show StableHlo.after hostOps4 (W8 m ρ c) (Proc.devRef .tc main_v99) = _
  after_results
  rw [kept8 m ρ c main_arg10 (by decide), atLaunch m ρ c main_arg10 (by decide)]
  rfl

theorem out4 : W10 m ρ c (Proc.devRef .tc main_v100) = val_main_v140 (F := Ideal) A0 A1 A3 A4 A5 A6 A7 A8 A9 A10 := by
  refine (W10_arr m ρ c 6).trans ?_
  rw [Layer4.value]
  show Cert.Gin.mlpCore (W9 m ρ c (Proc.devRef .tc main_v79)) (W9 m ρ c (Proc.devRef .tc main_v97))
      (W9 m ρ c (Proc.devRef .tc main_v81)) (fun j => W9 m ρ c (Proc.devRef .tc main_v98) (ix2 (0 : Fin 1) j))
      (W9 m ρ c (Proc.devRef .tc main_v85)) (fun j => W9 m ρ c (Proc.devRef .tc main_v99) (ix2 (0 : Fin 1) j)) = _
  rw [in4, agg4, wa4, ba4, wb4, bb4, Cert.GinRef.layer4]
  simp only [Cert.Sage.ReadAt.row_reshape_apply]

/-! ## Pooling and the head -/

theorem pooled : W11 m ρ c (Proc.devRef .tc main_v112) = val_main_v152 (F := Ideal) A0 A1 A2 A3 A4 A5 A6 A7 A8 A9 A10 := by
  show StableHlo.after hostOps5 (W10 m ρ c) (Proc.devRef .tc main_v112) = _
  after_results
  rw [out4 m ρ c, kept10 m ρ c main_arg2 (by decide), atLaunch m ρ c main_arg2 (by decide)]
  rfl

theorem hwa : W11 m ρ c (Proc.devRef .tc main_arg11) = A11 :=
  (Eq.trans (by carry_through hostOps5) (kept10 m ρ c main_arg11 (by decide))).trans (atLaunch m ρ c main_arg11 (by decide))

theorem hwb : W11 m ρ c (Proc.devRef .tc main_arg13) = A13 :=
  (Eq.trans (by carry_through hostOps5) (kept10 m ρ c main_arg13 (by decide))).trans (atLaunch m ρ c main_arg13 (by decide))

theorem hba : W11 m ρ c (Proc.devRef .tc main_v113) = shapeCast S1x256 A12 shapeCasts_S256_S1x256 := by
  show StableHlo.after hostOps5 (W10 m ρ c) (Proc.devRef .tc main_v113) = _
  after_results
  rw [kept10 m ρ c main_arg12 (by decide), atLaunch m ρ c main_arg12 (by decide)]
  rfl

theorem hbb : W11 m ρ c (Proc.devRef .tc main_v114) = shapeCast S1x1 A14 shapeCasts_S1_S1x1 := by
  show StableHlo.after hostOps5 (W10 m ρ c) (Proc.devRef .tc main_v114) = _
  after_results
  rw [kept10 m ρ c main_arg14 (by decide), atLaunch m ρ c main_arg14 (by decide)]
  rfl

/-- After the last region the result buffer holds the reference's result stage of the launch arguments. -/
theorem result : W12 m ρ c (Proc.devRef .tc main_v115) = val_main_v160 (F := Ideal) A0 A1 A2 A3 A4 A5 A6 A7 A8 A9 A10 A11 A12 A13 A14 := by
  refine (W12_arr m ρ c 5).trans ?_
  rw [Head.value]
  show Cert.Gin.headCore (W11 m ρ c (Proc.devRef .tc main_v112)) (W11 m ρ c (Proc.devRef .tc main_arg11))
      (fun j => W11 m ρ c (Proc.devRef .tc main_v113) (ix2 (0 : Fin 1) j)) (W11 m ρ c (Proc.devRef .tc main_arg13))
      (fun j => W11 m ρ c (Proc.devRef .tc main_v114) (ix2 (0 : Fin 1) j)) = _
  rw [pooled, hwa, hba, hwb, hbb, Cert.GinRef.head]
  simp only [Cert.Sage.ReadAt.row_reshape_apply]

end Cert.GinKernel.Chain

end
-- ==== Proof.lean ====
/-
  Five graph-isomorphism layers, a mean pool and a two-matrix head: the kernel against its reference.

  Both programs compute, on extended reals, the same function of the fifteen arguments.  A layer adds to every node's
  features the sum of its in-neighbours' features (a gather of source rows and a scatter-add at the targets), then
  applies  out[r, c] = max( Σ_j max( Σ_k (h[r,k] + g[r,k]) · w1[k,j] + b1[j], 0 ) · w2[j,c] + b2[c], 0 ).  The reference
  does all of it on the host; the kernel program does the gather and scatter-add with the very same host operations
  and the dense part in a kernel region that walks the nodes in twenty blocks of 5000 rows, with the biases passed as
  one-row matrices and the operands narrowed to a shorter float format before each product.  On extended reals a
  change of format is the identity, a product into a zero accumulator is the plain sum, and a block of rows of an
  array is read at the shifted row, so each region leaves the layer function of its input arrays, term for term the
  reference's; no law of arithmetic beyond that is used, and the precondition is never opened.  The mean pool is the
  same host operations in both programs, and the head region (one block) leaves
      out[r, c] = Σ_j ( Σ_k p[r,k] · w1[k,j] + b1[j] ) · w2[j,c] + b2[c],
  again the reference's term.  The claim's witness is the reference's result stage of the kernel's launch arguments.
-/
import proofs.«166179_j72456098284043_1_alg».proof.Defs
import proofs.«166179_j72456098284043_1_alg».proof.Proof.Gen.Kernel
import proofs.«166179_j72456098284043_1_alg».proof.Proof.Gen.Kernel.Skeleton
import proofs.«166179_j72456098284043_1_alg».proof.Proof.Gen.Kernel.Launch
import proofs.«166179_j72456098284043_1_alg».proof.Proof.Gen.Kernel.Points
import proofs.«166179_j72456098284043_1_alg».proof.Proof.Gen.Kernel.Frame
import proofs.«166179_j72456098284043_1_alg».proof.Proof.Gen.KernelIdeal
import proofs.«166179_j72456098284043_1_alg».proof.Proof.Gen.KernelIdeal.Skeleton
import proofs.«166179_j72456098284043_1_alg».proof.Proof.Gen.KernelIdeal.Launch
import proofs.«166179_j72456098284043_1_alg».proof.Proof.Gen.KernelIdeal.Points
import proofs.«166179_j72456098284043_1_alg».proof.Proof.Gen.KernelIdeal.Frame
import proofs.«166179_j72456098284043_1_alg».proof.Proof.Gen.ReferenceIdeal
import proofs.«166179_j72456098284043_1_alg».proof.Proof.Gen.Pre_finite_inputs
import proofs.«166179_j72456098284043_1_alg».proof.Proof.Gen.ReferenceIdeal.Run
import proofs.«166179_j72456098284043_1_alg».proof.Proof.Gen.ReferenceIdeal.Read
import proofs.«166179_j72456098284043_1_alg».proof.Proof.KRun
import proofs.«166179_j72456098284043_1_alg».proof.Proof.KChain
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the kernel program read on extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's result stage of those arguments:
    the kernel program because its last region leaves exactly that (the trace through its twelve segments), the
    reference because that stage is its run's result. -/
theorem algebraic : Cert.algebraic_KernelIdeal_ReferenceIdeal := by
  intro m ρ m' ρ' _ hagree
  refine ⟨fun c => Cert.ReferenceIdeal.Read.val_main_v160 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · refine (θ_run Cert.KernelIdeal.defs _ _).mono (fun r h c => ?_) (Cert.GinKernel.run_ends m ρ)
    exact ⟨(h c _ Cert.GinKernel.result_unscoped).trans (Cert.GinKernel.Chain.result m ρ c),
      (h c _ (Cert.KernelIdeal.Gen.mem_uc Cert.KernelIdeal.main_arg0 (by decide))).trans (Cert.KernelIdeal.Gen.W12_main_arg0 m ρ c),
      (h c _ (Cert.KernelIdeal.Gen.mem_uc Cert.KernelIdeal.main_arg1 (by decide))).trans (Cert.KernelIdeal.Gen.W12_main_arg1 m ρ c),
      (h c _ (Cert.KernelIdeal.Gen.mem_uc Cert.KernelIdeal.main_arg2 (by decide))).trans (Cert.KernelIdeal.Gen.W12_main_arg2 m ρ c),
      (h c _ (Cert.KernelIdeal.Gen.mem_uc Cert.KernelIdeal.main_arg3 (by decide))).trans (Cert.KernelIdeal.Gen.W12_main_arg3 m ρ c),
      (h c _ (Cert.KernelIdeal.Gen.mem_uc Cert.KernelIdeal.main_arg4 (by decide))).trans (Cert.KernelIdeal.Gen.W12_main_arg4 m ρ c),
      (h c _ (Cert.KernelIdeal.Gen.mem_uc Cert.KernelIdeal.main_arg5 (by decide))).trans (Cert.KernelIdeal.Gen.W12_main_arg5 m ρ c),
      (h c _ (Cert.KernelIdeal.Gen.mem_uc Cert.KernelIdeal.main_arg6 (by decide))).trans (Cert.KernelIdeal.Gen.W12_main_arg6 m ρ c),
      (h c _ (Cert.KernelIdeal.Gen.mem_uc Cert.KernelIdeal.main_arg7 (by decide))).trans (Cert.KernelIdeal.Gen.W12_main_arg7 m ρ c),
      (h c _ (Cert.KernelIdeal.Gen.mem_uc Cert.KernelIdeal.main_arg8 (by decide))).trans (Cert.KernelIdeal.Gen.W12_main_arg8 m ρ c),
      (h c _ (Cert.KernelIdeal.Gen.mem_uc Cert.KernelIdeal.main_arg9 (by decide))).trans (Cert.KernelIdeal.Gen.W12_main_arg9 m ρ c),
      (h c _ (Cert.KernelIdeal.Gen.mem_uc Cert.KernelIdeal.main_arg10 (by decide))).trans (Cert.KernelIdeal.Gen.W12_main_arg10 m ρ c),
      (h c _ (Cert.KernelIdeal.Gen.mem_uc Cert.KernelIdeal.main_arg11 (by decide))).trans (Cert.KernelIdeal.Gen.W12_main_arg11 m ρ c),
      (h c _ (Cert.KernelIdeal.Gen.mem_uc Cert.KernelIdeal.main_arg12 (by decide))).trans (Cert.KernelIdeal.Gen.W12_main_arg12 m ρ c),
      (h c _ (Cert.KernelIdeal.Gen.mem_uc Cert.KernelIdeal.main_arg13 (by decide))).trans (Cert.KernelIdeal.Gen.W12_main_arg13 m ρ c),
      (h c _ (Cert.KernelIdeal.Gen.mem_uc Cert.KernelIdeal.main_arg14 (by decide))).trans (Cert.KernelIdeal.Gen.W12_main_arg14 m ρ c)⟩
  · refine (θ_run Cert.ReferenceIdeal.defs _ _).mono (fun r h c => ⟨?_, (h c).2⟩)
      (Cert.ReferenceIdeal.Value.run (F := Ideal) m' ρ')
    obtain ⟨g0, g1, g2, g3, g4, g5, g6, g7, g8, g9, g10, g11, g12, g13, g14⟩ := hagree c
    rw [(h c).1, Cert.ReferenceIdeal.Read.val_main_v160_eq, g0, g1, g2, g3, g4, g5, g6, g7, g8, g9, g10, g11, g12, g13, g14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
